-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S900000x100 : Shape := ⟨2, ![900000, 100]⟩
abbrev S900000 : Shape := ⟨1, ![900000]⟩
abbrev S60000 : Shape := ⟨1, ![60000]⟩
abbrev S5120 : Shape := ⟨1, ![5120]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S900000x100 : S_.BroadcastsInDim S900000x100 (![] : Fin 0 → Fin S900000x100.rank)
  reducesTo_S900000x100_S_d0_1 : S900000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S900000x100 .f32) (main_arg1 : IVec S900000 32) (main_arg2 : IVec S900000 32) (main_arg3 : IVec S60000 32) (main_arg4 : IVec S60000 32) (main_arg5 : IVec S5120 32) (main_arg6 : IVec S5120 32) (main_arg7 : FVec F S100x256 .f32) (main_arg8 : FVec F S100x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S900000x100 .f32 := Host.absf main_arg0
  let main_cst : FVec F S_ .f32 := constant S_ .f32 0x7F800000#32
  let main_v1 : FVec F S900000x100 .f32 := broadcastInDim S900000x100 ![] bcast_S_S900000x100 main_cst
  let main_v2 : IVec S900000x100 1 := cmpf .olt main_v0 main_v1
  let main_c : IVec S_ 1 := constantI S_ 1 1#1
  let main_v3 : IVec S_ 1 := (fun x v => Host.reduce IntOp.andi x v reducesTo_S900000x100_S_d0_1 h_S_) main_v2 main_c
  let main_v4 : FVec F S100x256 .f32 := Host.absf main_arg7
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg8
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S900000x100 : Shape := ⟨2, ![900000, 100]⟩
abbrev S900000 : Shape := ⟨1, ![900000]⟩
abbrev S60000 : Shape := ⟨1, ![60000]⟩
abbrev S5120 : Shape := ⟨1, ![5120]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S900000x1 : Shape := ⟨2, ![900000, 1]⟩
abbrev S60000x100 : Shape := ⟨2, ![60000, 100]⟩
abbrev S60000x1 : Shape := ⟨2, ![60000, 1]⟩
abbrev S60000x256 : Shape := ⟨2, ![60000, 256]⟩
abbrev S6000x100 : Shape := ⟨2, ![6000, 100]⟩
abbrev S6000x256 : Shape := ⟨2, ![6000, 256]⟩
abbrev S1x256 : Shape := ⟨2, ![1, 256]⟩
abbrev S6000 : Shape := ⟨1, ![6000]⟩
abbrev S6000x1 : Shape := ⟨2, ![6000, 1]⟩
abbrev S2000x256 : Shape := ⟨2, ![2000, 256]⟩
abbrev S5120x1 : Shape := ⟨2, ![5120, 1]⟩
abbrev S5120x256 : Shape := ⟨2, ![5120, 256]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 97
  | .vmem => 24
  | .smem => 0
  | _ => 0

abbrev bufTy : (tb : Table) → Fin (tcTables nBuf tb) → BufTy
  | .hbm, ⟨0, _⟩ => ⟨S900000x100, .f32⟩
  | .hbm, ⟨1, _⟩ => ⟨S900000, .i32⟩
  | .hbm, ⟨2, _⟩ => ⟨S900000, .i32⟩
  | .hbm, ⟨3, _⟩ => ⟨S60000, .i32⟩
  | .hbm, ⟨4, _⟩ => ⟨S60000, .i32⟩
  | .hbm, ⟨5, _⟩ => ⟨S5120, .i32⟩
  | .hbm, ⟨6, _⟩ => ⟨S5120, .i32⟩
  | .hbm, ⟨7, _⟩ => ⟨S100x256, .f32⟩
  | .hbm, ⟨8, _⟩ => ⟨S100x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S900000, .i32⟩
  | .hbm, ⟨18, _⟩ => ⟨S900000, .i1⟩
  | .hbm, ⟨19, _⟩ => ⟨S_, .i32⟩
  | .hbm, ⟨20, _⟩ => ⟨S900000, .i32⟩
  | .hbm, ⟨21, _⟩ => ⟨S900000, .i32⟩
  | .hbm, ⟨22, _⟩ => ⟨S900000, .i32⟩
  | .hbm, ⟨23, _⟩ => ⟨S900000x1, .i32⟩
  | .hbm, ⟨24, _⟩ => ⟨S900000x100, .f32⟩
  | .hbm, ⟨25, _⟩ => ⟨S_, .f32⟩
  | .hbm, ⟨26, _⟩ => ⟨S60000x100, .f32⟩
  | .hbm, ⟨27, _⟩ => ⟨S900000x1, .i32⟩
  | .hbm, ⟨28, _⟩ => ⟨S60000x100, .f32⟩
  | .hbm, ⟨29, _⟩ => ⟨S_, .f32⟩
  | .hbm, ⟨30, _⟩ => ⟨S900000, .f32⟩
  | .hbm, ⟨31, _⟩ => ⟨S_, .f32⟩
  | .hbm, ⟨32, _⟩ => ⟨S60000, .f32⟩
  | .hbm, ⟨33, _⟩ => ⟨S900000x1, .i32⟩
  | .hbm, ⟨34, _⟩ => ⟨S60000, .f32⟩
  | .hbm, ⟨35, _⟩ => ⟨S_, .f32⟩
  | .hbm, ⟨36, _⟩ => ⟨S60000, .f32⟩
  | .hbm, ⟨37, _⟩ => ⟨S60000, .f32⟩
  | .hbm, ⟨38, _⟩ => ⟨S60000x1, .f32⟩
  | .hbm, ⟨39, _⟩ => ⟨S60000x100, .f32⟩
  | .hbm, ⟨40, _⟩ => ⟨S60000x100, .f32⟩
  | .hbm, ⟨41, _⟩ => ⟨S60000x100, .f32⟩
  | .hbm, ⟨42, _⟩ => ⟨S60000x256, .f32⟩
  | .hbm, ⟨43, _⟩ => ⟨S_, .i32⟩
  | .hbm, ⟨44, _⟩ => ⟨S60000, .i32⟩
  | .hbm, ⟨45, _⟩ => ⟨S60000, .i1⟩
  | .hbm, ⟨46, _⟩ => ⟨S_, .i32⟩
  | .hbm, ⟨47, _⟩ => ⟨S60000, .i32⟩
  | .hbm, ⟨48, _⟩ => ⟨S60000, .i32⟩
  | .hbm, ⟨49, _⟩ => ⟨S60000, .i32⟩
  | .hbm, ⟨50, _⟩ => ⟨S60000x1, .i32⟩
  | .hbm, ⟨51, _⟩ => ⟨S60000x256, .f32⟩
  | .hbm, ⟨52, _⟩ => ⟨S_, .f32⟩
  | .hbm, ⟨53, _⟩ => ⟨S6000x256, .f32⟩
  | .hbm, ⟨54, _⟩ => ⟨S60000x1, .i32⟩
  | .hbm, ⟨55, _⟩ => ⟨S6000x256, .f32⟩
  | .hbm, ⟨56, _⟩ => ⟨S_, .f32⟩
  | .hbm, ⟨57, _⟩ => ⟨S60000, .f32⟩
  | .hbm, ⟨58, _⟩ => ⟨S_, .f32⟩
  | .hbm, ⟨59, _⟩ => ⟨S6000, .f32⟩
  | .hbm, ⟨60, _⟩ => ⟨S60000x1, .i32⟩
  | .hbm, ⟨61, _⟩ => ⟨S6000, .f32⟩
  | .hbm, ⟨62, _⟩ => ⟨S_, .f32⟩
  | .hbm, ⟨63, _⟩ => ⟨S6000, .f32⟩
  | .hbm, ⟨64, _⟩ => ⟨S6000, .f32⟩
  | .hbm, ⟨65, _⟩ => ⟨S6000x1, .f32⟩
  | .hbm, ⟨66, _⟩ => ⟨S6000x256, .f32⟩
  | .hbm, ⟨67, _⟩ => ⟨S6000x256, .f32⟩
  | .hbm, ⟨68, _⟩ => ⟨S6000x256, .f32⟩
  | .hbm, ⟨69, _⟩ => ⟨S6000x256, .f32⟩
  | .hbm, ⟨70, _⟩ => ⟨S_, .i32⟩
  | .hbm, ⟨71, _⟩ => ⟨S5120, .i32⟩
  | .hbm, ⟨72, _⟩ => ⟨S5120, .i1⟩
  | .hbm, ⟨73, _⟩ => ⟨S_, .i32⟩
  | .hbm, ⟨74, _⟩ => ⟨S5120, .i32⟩
  | .hbm, ⟨75, _⟩ => ⟨S5120, .i32⟩
  | .hbm, ⟨76, _⟩ => ⟨S5120, .i32⟩
  | .hbm, ⟨77, _⟩ => ⟨S5120x1, .i32⟩
  | .hbm, ⟨78, _⟩ => ⟨S5120x256, .f32⟩
  | .hbm, ⟨79, _⟩ => ⟨S_, .f32⟩
  | .hbm, ⟨80, _⟩ => ⟨S1024x256, .f32⟩
  | .hbm, ⟨81, _⟩ => ⟨S5120x1, .i32⟩
  | .hbm, ⟨82, _⟩ => ⟨S1024x256, .f32⟩
  | .hbm, ⟨83, _⟩ => ⟨S_, .f32⟩
  | .hbm, ⟨84, _⟩ => ⟨S5120, .f32⟩
  | .hbm, ⟨85, _⟩ => ⟨S_, .f32⟩
  | .hbm, ⟨86, _⟩ => ⟨S1024, .f32⟩
  | .hbm, ⟨87, _⟩ => ⟨S5120x1, .i32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024x1, .f32⟩
  | .hbm, ⟨93, _⟩ => ⟨S1024x256, .f32⟩
  | .hbm, ⟨94, _⟩ => ⟨S1024x256, .f32⟩
  | .hbm, ⟨95, _⟩ => ⟨S1024x256, .f32⟩
  | .hbm, ⟨96, _⟩ => ⟨S1024x47, .f32⟩
  | .local _ .vmem, ⟨0, _⟩ => ⟨S6000x100, .f32⟩
  | .local _ .vmem, ⟨1, _⟩ => ⟨S6000x100, .f32⟩
  | .local _ .vmem, ⟨2, _⟩ => ⟨S6000x100, .f32⟩
  | .local _ .vmem, ⟨3, _⟩ => ⟨S6000x100, .f32⟩
  | .local _ .vmem, ⟨4, _⟩ => ⟨S100x256, .f32⟩
  | .local _ .vmem, ⟨5, _⟩ => ⟨S100x256, .f32⟩
  | .local _ .vmem, ⟨6, _⟩ => ⟨S256, .f32⟩
  | .local _ .vmem, ⟨7, _⟩ => ⟨S6000x256, .f32⟩
  | .local _ .vmem, ⟨8, _⟩ => ⟨S6000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S1024x256, .f32⟩
  | .local _ .vmem, ⟨19, _⟩ => ⟨S1024x256, .f32⟩
  | .local _ .vmem, ⟨20, _⟩ => ⟨S256x47, .f32⟩
  | .local _ .vmem, ⟨21, _⟩ => ⟨S256x47, .f32⟩
  | .local _ .vmem, ⟨22, _⟩ => ⟨S47, .f32⟩
  | .local _ .vmem, ⟨23, _⟩ => ⟨S1024x47, .f32⟩
  | _, _ => ⟨S900000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S900000 : S_.BroadcastsInDim S900000 (![] : Fin 0 → Fin S900000.rank)
  bcast_S900000_S900000x1_0 : S900000.BroadcastsInDim S900000x1 (![0] : Fin 1 → Fin S900000x1.rank)
  bcast_S_S60000x100 : S_.BroadcastsInDim S60000x100 (![] : Fin 0 → Fin S60000x100.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x100_0_1 : S60000x1.BroadcastsInDim S60000x100 (![0, 1] : Fin 2 → Fin S60000x100.rank)
  slices_S900000x100_S60000x100_0_0 : S900000x100.Slices ![0, 0] S60000x100
  inb_S6000x100_S6000x100_0_0 : ∀ a, (![0, 0] : Fin 2 → Nat) a + S6000x100.size a ≤ S6000x100.size a
  h_S6000x100 : 0 < S6000x100.numel
  shapeCasts_S6000x100_S6000x100 : S6000x100.ShapeCasts S6000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S6000x256 : S1x256.Broadcasts S6000x256
  inb_S6000x256_S6000x256_0_0 : ∀ a, (![0, 0] : Fin 2 → Nat) a + S6000x256.size a ≤ S6000x256.size a
  h_S6000x256 : 0 < S6000x256.numel
  bcast_S_S6000x256 : S_.BroadcastsInDim S6000x256 (![] : Fin 0 → Fin S6000x256.rank)
  bcast_S_S6000 : S_.BroadcastsInDim S6000 (![] : Fin 0 → Fin S6000.rank)
  bcast_S6000_S6000x1_0 : S6000.BroadcastsInDim S6000x1 (![0] : Fin 1 → Fin S6000x1.rank)
  bcast_S6000x1_S6000x256_0_1 : S6000x1.BroadcastsInDim S6000x256 (![0, 1] : Fin 2 → Fin S6000x256.rank)
  slices_S60000x256_S6000x256_0_0 : S60000x256.Slices ![0, 0] S6000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  bcast_S_S5120 : S_.BroadcastsInDim S5120 (![] : Fin 0 → Fin S5120.rank)
  bcast_S5120_S5120x1_0 : S5120.BroadcastsInDim S5120x1 (![0] : Fin 1 → Fin S5120x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S6000x256_S1024x256_0_0 : S6000x256.Slices ![0, 0] S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S900000x100_S900000x1_S900000x100_1_0_n_n_0_1_1100_wf : GatherDims.WF S900000x100 S900000x1 S900000x100 [1] [0] [] [0] [] 1 ![1, 100]
  scatter_S60000x100_S900000x1_S900000x100_1_0_0_1_wf : ScatterDims.WF S60000x100 S900000x1 S900000x100 [1] [0] [0] 1
  scatter_S60000_S900000x1_S900000_n_0_0_1_wf : ScatterDims.WF S60000 S900000x1 S900000 [] [0] [0] 1
  dot_S6000x100_S100x256_S6000x256_1_0_0_1_n_n_wf : DotDims.WF S6000x100 S100x256 S6000x256 [1] [0] [0] [1] [] []
  gather_S60000x256_S60000x1_S60000x256_1_0_n_n_0_1_1256_wf : GatherDims.WF S60000x256 S60000x1 S60000x256 [1] [0] [] [0] [] 1 ![1, 256]
  scatter_S6000x256_S60000x1_S60000x256_1_0_0_1_wf : ScatterDims.WF S6000x256 S60000x1 S60000x256 [1] [0] [0] 1
  scatter_S6000_S60000x1_S60000_n_0_0_1_wf : ScatterDims.WF S6000 S60000x1 S60000 [] [0] [0] 1
  dot_S2000x256_S256x256_S2000x256_1_0_0_1_n_n_wf : DotDims.WF S2000x256 S256x256 S2000x256 [1] [0] [0] [1] [] []
  gather_S6000x256_S5120x1_S5120x256_1_0_n_n_0_1_1256_wf : GatherDims.WF S6000x256 S5120x1 S5120x256 [1] [0] [] [0] [] 1 ![1, 256]
  scatter_S1024x256_S5120x1_S5120x256_1_0_0_1_wf : ScatterDims.WF S1024x256 S5120x1 S5120x256 [1] [0] [0] 1
  scatter_S1024_S5120x1_S5120_n_0_0_1_wf : ScatterDims.WF S1024 S5120x1 S5120 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x100.size a ≤ S60000x100.size a
  hwx0_0 : ∀ i : grid0.Coords, EltTy.bits .f32 = 32 ∨ (Rect.block (s := S60000x100) S6000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x100.size a ≤ S60000x100.size a
  hwx0_1 : ∀ i : grid0.Coords, EltTy.bits .f32 = 32 ∨ (Rect.block (s := S60000x100) S6000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x256.size a ≤ S60000x256.size a
  hwx0_5 : ∀ i : grid0.Coords, EltTy.bits .f32 = 32 ∨ (Rect.block (s := S60000x256) S6000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S6000x256.size a
  hwx1_0 : ∀ i : grid1.Coords, EltTy.bits .f32 = 32 ∨ (Rect.block (s := S6000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S6000x256.size a
  hwx1_1 : ∀ i : grid1.Coords, EltTy.bits .f32 = 32 ∨ (Rect.block (s := S6000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S6000x256.size a
  hwx1_5 : ∀ i : grid1.Coords, EltTy.bits .f32 = 32 ∨ (Rect.block (s := S6000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .f32 = 32 ∨ (Rect.block (s := S1024x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47.size a ≤ S47.size a
  hwx2_4 : ∀ i : grid2.Coords, EltTy.bits .f32 = 32 ∨ (Rect.block (s := S47) S47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1024x47.size a ≤ S1024x47.size a
  hwx2_5 : ∀ i : grid2.Coords, EltTy.bits .f32 = 32 ∨ (Rect.block (s := S1024x47) S1024x47.size (cc2_transform_5 i) (hinb2_5 i)).WholeWords (EltTy.packing .f32)

variable [Facts₀]

def gather_S900000x100_S900000x1_S900000x100_1_0_n_n_0_1_1100 : GatherDims S900000x100 S900000x1 S900000x100 where
  offsetDims := [1]
  collapsedSliceDims := [0]
  operandBatchingDims := []
  startIndicesBatchingDims := []
  startIndexMap := [0]
  indexVectorDim := 1
  sliceSizes := ![1, 100]
  wf := gather_S900000x100_S900000x1_S900000x100_1_0_n_n_0_1_1100_wf
def scatter_S60000x100_S900000x1_S900000x100_1_0_0_1 : ScatterDims S60000x100 S900000x1 S900000x100 where
  updateWindowDims := [1]
  insertedWindowDims := [0]
  scatterDimsToOperandDims := [0]
  indexVectorDim := 1
  wf := scatter_S60000x100_S900000x1_S900000x100_1_0_0_1_wf
def scatter_S60000_S900000x1_S900000_n_0_0_1 : ScatterDims S60000 S900000x1 S900000 where
  updateWindowDims := []
  insertedWindowDims := [0]
  scatterDimsToOperandDims := [0]
  indexVectorDim := 1
  wf := scatter_S60000_S900000x1_S900000_n_0_0_1_wf
def dot_S6000x100_S100x256_S6000x256_1_0_0_1_n_n : DotDims S6000x100 S100x256 S6000x256 where
  lhsContracting := [1]
  rhsContracting := [0]
  lhsNonContracting := [0]
  rhsNonContracting := [1]
  lhsBatch := []
  rhsBatch := []
  wf := dot_S6000x100_S100x256_S6000x256_1_0_0_1_n_n_wf
def gather_S60000x256_S60000x1_S60000x256_1_0_n_n_0_1_1256 : GatherDims S60000x256 S60000x1 S60000x256 where
  offsetDims := [1]
  collapsedSliceDims := [0]
  operandBatchingDims := []
  startIndicesBatchingDims := []
  startIndexMap := [0]
  indexVectorDim := 1
  sliceSizes := ![1, 256]
  wf := gather_S60000x256_S60000x1_S60000x256_1_0_n_n_0_1_1256_wf
def scatter_S6000x256_S60000x1_S60000x256_1_0_0_1 : ScatterDims S6000x256 S60000x1 S60000x256 where
  updateWindowDims := [1]
  insertedWindowDims := [0]
  scatterDimsToOperandDims := [0]
  indexVectorDim := 1
  wf := scatter_S6000x256_S60000x1_S60000x256_1_0_0_1_wf
def scatter_S6000_S60000x1_S60000_n_0_0_1 : ScatterDims S6000 S60000x1 S60000 where
  updateWindowDims := []
  insertedWindowDims := [0]
  scatterDimsToOperandDims := [0]
  indexVectorDim := 1
  wf := scatter_S6000_S60000x1_S60000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S6000x256_S5120x1_S5120x256_1_0_n_n_0_1_1256 : GatherDims S6000x256 S5120x1 S5120x256 where
  offsetDims := [1]
  collapsedSliceDims := [0]
  operandBatchingDims := []
  startIndicesBatchingDims := []
  startIndexMap := [0]
  indexVectorDim := 1
  sliceSizes := ![1, 256]
  wf := gather_S6000x256_S5120x1_S5120x256_1_0_n_n_0_1_1256_wf
def scatter_S1024x256_S5120x1_S5120x256_1_0_0_1 : ScatterDims S1024x256 S5120x1 S5120x256 where
  updateWindowDims := [1]
  insertedWindowDims := [0]
  scatterDimsToOperandDims := [0]
  indexVectorDim := 1
  wf := scatter_S1024x256_S5120x1_S5120x256_1_0_0_1_wf
def scatter_S1024_S5120x1_S5120_n_0_0_1 : ScatterDims S1024 S5120x1 S5120 where
  updateWindowDims := []
  insertedWindowDims := [0]
  scatterDimsToOperandDims := [0]
  indexVectorDim := 1
  wf := scatter_S1024_S5120x1_S5120_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v18) S6000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S6000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S6000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1024x47.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S900000x100 : Shape := ⟨2, ![900000, 100]⟩
abbrev S900000 : Shape := ⟨1, ![900000]⟩
abbrev S60000 : Shape := ⟨1, ![60000]⟩
abbrev S5120 : Shape := ⟨1, ![5120]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S60000x100 : Shape := ⟨2, ![60000, 100]⟩
abbrev S_ : Shape := ⟨0, ![]⟩
abbrev S900000x1 : Shape := ⟨2, ![900000, 1]⟩
abbrev S60000x1 : Shape := ⟨2, ![60000, 1]⟩
abbrev S60000x256 : Shape := ⟨2, ![60000, 256]⟩
abbrev S1x256 : Shape := ⟨2, ![1, 256]⟩
abbrev S6000x256 : Shape := ⟨2, ![6000, 256]⟩
abbrev S6000x1 : Shape := ⟨2, ![6000, 1]⟩
abbrev S1024x256 : Shape := ⟨2, ![1024, 256]⟩
abbrev S5120x1 : Shape := ⟨2, ![5120, 1]⟩
abbrev S5120x256 : Shape := ⟨2, ![5120, 256]⟩
abbrev S1024x1 : Shape := ⟨2, ![1024, 1]⟩
abbrev S1024x47 : Shape := ⟨2, ![1024, 47]⟩
abbrev S1x47 : Shape := ⟨2, ![1, 47]⟩
abbrev S1024 : Shape := ⟨1, ![1024]⟩

abbrev nBuf : Space → Nat
  | .hbm => 130
  | .vmem => 0
  | .smem => 0
  | _ => 0

abbrev hbmTy0_0 (i : Nat) : BufTy := match i % 128 with
  | 0 => ⟨S900000x100, .f32⟩
  | 1 => ⟨S900000, .i32⟩
  | 2 => ⟨S900000, .i32⟩
  | 3 => ⟨S60000, .i32⟩
  | 4 => ⟨S60000, .i32⟩
  | 5 => ⟨S5120, .i32⟩
  | 6 => ⟨S5120, .i32⟩
  | 7 => ⟨S100x256, .f32⟩
  | 8 => ⟨S100x256, .f32⟩
  | 9 => ⟨S256, .f32⟩
  | 10 => ⟨S256x256, .f32⟩
  | 11 => ⟨S256x256, .f32⟩
  | 12 => ⟨S256, .f32⟩
  | 13 => ⟨S256x47, .f32⟩
  | 14 => ⟨S256x47, .f32⟩
  | 15 => ⟨S47, .f32⟩
  | 16 => ⟨S60000x100, .f32⟩
  | 17 => ⟨S_, .i32⟩
  | 18 => ⟨S900000, .i32⟩
  | 19 => ⟨S900000, .i1⟩
  | 20 => ⟨S_, .i32⟩
  | 21 => ⟨S900000, .i32⟩
  | 22 => ⟨S900000, .i32⟩
  | 23 => ⟨S900000, .i32⟩
  | 24 => ⟨S900000x1, .i32⟩
  | 25 => ⟨S900000x100, .f32⟩
  | 26 => ⟨S_, .f32⟩
  | 27 => ⟨S60000x100, .f32⟩
  | 28 => ⟨S900000x1, .i32⟩
  | 29 => ⟨S60000x100, .f32⟩
  | 30 => ⟨S_, .f32⟩
  | 31 => ⟨S900000x1, .f32⟩
  | 32 => ⟨S_, .f32⟩
  | 33 => ⟨S60000x1, .f32⟩
  | 34 => ⟨S900000x1, .i32⟩
  | 35 => ⟨S60000x1, .f32⟩
  | 36 => ⟨S_, .f32⟩
  | 37 => ⟨S60000x1, .f32⟩
  | 38 => ⟨S60000x1, .f32⟩
  | 39 => ⟨S60000x100, .f32⟩
  | 40 => ⟨S60000x100, .f32⟩
  | 41 => ⟨S60000x256, .f32⟩
  | 42 => ⟨S60000x256, .f32⟩
  | 43 => ⟨S60000x256, .f32⟩
  | 44 => ⟨S1x256, .f32⟩
  | 45 => ⟨S60000x256, .f32⟩
  | 46 => ⟨S60000x256, .f32⟩
  | 47 => ⟨S_, .f32⟩
  | 48 => ⟨S60000x256, .f32⟩
  | 49 => ⟨S60000x256, .f32⟩
  | 50 => ⟨S6000x256, .f32⟩
  | 51 => ⟨S_, .i32⟩
  | 52 => ⟨S60000, .i32⟩
  | 53 => ⟨S60000, .i1⟩
  | 54 => ⟨S_, .i32⟩
  | 55 => ⟨S60000, .i32⟩
  | 56 => ⟨S60000, .i32⟩
  | 57 => ⟨S60000, .i32⟩
  | 58 => ⟨S60000x1, .i32⟩
  | 59 => ⟨S60000x256, .f32⟩
  | 60 => ⟨S_, .f32⟩
  | 61 => ⟨S6000x256, .f32⟩
  | 62 => ⟨S60000x1, .i32⟩
  | 63 => ⟨S6000x256, .f32⟩
  | 64 => ⟨S_, .f32⟩
  | 65 => ⟨S60000x1, .f32⟩
  | 66 => ⟨S_, .f32⟩
  | 67 => ⟨S6000x1, .f32⟩
  | 68 => ⟨S60000x1, .i32⟩
  | 69 => ⟨S6000x1, .f32⟩
  | 70 => ⟨S_, .f32⟩
  | 71 => ⟨S6000x1, .f32⟩
  | 72 => ⟨S6000x1, .f32⟩
  | 73 => ⟨S6000x256, .f32⟩
  | 74 => ⟨S6000x256, .f32⟩
  | 75 => ⟨S6000x256, .f32⟩
  | 76 => ⟨S6000x256, .f32⟩
  | 77 => ⟨S6000x256, .f32⟩
  | 78 => ⟨S1x256, .f32⟩
  | 79 => ⟨S6000x256, .f32⟩
  | 80 => ⟨S6000x256, .f32⟩
  | 81 => ⟨S_, .f32⟩
  | 82 => ⟨S6000x256, .f32⟩
  | 83 => ⟨S6000x256, .f32⟩
  | 84 => ⟨S1024x256, .f32⟩
  | 85 => ⟨S_, .i32⟩
  | 86 => ⟨S5120, .i32⟩
  | 87 => ⟨S5120, .i1⟩
  | 88 => ⟨S_, .i32⟩
  | 89 => ⟨S5120, .i32⟩
  | 90 => ⟨S5120, .i32⟩
  | 91 => ⟨S5120, .i32⟩
  | 92 => ⟨S5120x1, .i32⟩
  | 93 => ⟨S5120x256, .f32⟩
  | 94 => ⟨S_, .f32⟩
  | 95 => ⟨S1024x256, .f32⟩
  | 96 => ⟨S5120x1, .i32⟩
  | 97 => ⟨S1024x256, .f32⟩
  | 98 => ⟨S_, .f32⟩
  | 99 => ⟨S5120x1, .f32⟩
  | 100 => ⟨S_, .f32⟩
  | 101 => ⟨S1024x1, .f32⟩
  | 102 => ⟨S5120x1, .i32⟩
  | 103 => ⟨S1024x1, .f32⟩
  | 104 => ⟨S_, .f32⟩
  | 105 => ⟨S1024x1, .f32⟩
  | 106 => ⟨S1024x1, .f32⟩
  | 107 => ⟨S1024x256, .f32⟩
  | 108 => ⟨S1024x256, .f32⟩
  | 109 => ⟨S1024x47, .f32⟩
  | 110 => ⟨S1024x47, .f32⟩
  | 111 => ⟨S1024x47, .f32⟩
  | 112 => ⟨S1x47, .f32⟩
  | 113 => ⟨S1024x47, .f32⟩
  | 114 => ⟨S1024x47, .f32⟩
  | 115 => ⟨S_, .f32⟩
  | 116 => ⟨S1024, .f32⟩
  | 117 => ⟨S_, .f32⟩
  | 118 => ⟨S1024, .f32⟩
  | 119 => ⟨S1024, .f32⟩
  | 120 => ⟨S1024x1, .f32⟩
  | 121 => ⟨S1024x47, .f32⟩
  | 122 => ⟨S1024x47, .f32⟩
  | 123 => ⟨S1024x47, .f32⟩
  | 124 => ⟨S_, .f32⟩
  | 125 => ⟨S1024, .f32⟩
  | 126 => ⟨S1024x1, .f32⟩
  | 127 => ⟨S1024x1, .f32⟩
  | _ => ⟨S900000x100, .f32⟩

abbrev hbmTy0_1 (i : Nat) : BufTy := match i % 128 with
  | 0 => ⟨S1024x47, .f32⟩
  | 1 => ⟨S1024x47, .f32⟩
  | _ => ⟨S900000x100, .f32⟩

abbrev hbmTy (i : Nat) : BufTy := match i / 128 with
  | 0 => hbmTy0_0 i
  | 1 => hbmTy0_1 i
  | _ => ⟨S900000x100, .f32⟩

abbrev bufTy : (tb : Table) → Fin (tcTables nBuf tb) → BufTy
  | .hbm, ⟨i, _⟩ => hbmTy i
  | _, _ => ⟨S900000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call2_cst : Ref sig .tc := ⟨.hbm, 115, rfl⟩
abbrev main_call2_v0 : Ref sig .tc := ⟨.hbm, 116, rfl⟩
abbrev main_call2_cst_0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_cst_1 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_v77 : Ref sig .tc := ⟨.hbm, 129, rfl⟩

abbrev nD : Nat := 1
abbrev τ : Topo := Topo.v7x

variable {F : FTy → Type} [FloatOps F]

class Facts₀ : Prop where
  slices_S900000x100_S60000x100_0_0 : S900000x100.Slices ![0, 0] S60000x100
  bcast_S_S900000 : S_.BroadcastsInDim S900000 (![] : Fin 0 → Fin S900000.rank)
  bcast_S900000_S900000x1_0 : S900000.BroadcastsInDim S900000x1 (![0] : Fin 1 → Fin S900000x1.rank)
  bcast_S_S60000x100 : S_.BroadcastsInDim S60000x100 (![] : Fin 0 → Fin S60000x100.rank)
  bcast_S_S900000x1 : S_.BroadcastsInDim S900000x1 (![] : Fin 0 → Fin S900000x1.rank)
  bcast_S_S60000x1 : S_.BroadcastsInDim S60000x1 (![] : Fin 0 → Fin S60000x1.rank)
  bcast_S60000x1_S60000x100_0_1 : S60000x1.BroadcastsInDim S60000x100 (![0, 1] : Fin 2 → Fin S60000x100.rank)
  bcast_S256_S1x256_1 : S256.BroadcastsInDim S1x256 (![1] : Fin 1 → Fin S1x256.rank)
  bcast_S1x256_S60000x256_0_1 : S1x256.BroadcastsInDim S60000x256 (![0, 1] : Fin 2 → Fin S60000x256.rank)
  bcast_S_S60000x256 : S_.BroadcastsInDim S60000x256 (![] : Fin 0 → Fin S60000x256.rank)
  slices_S60000x256_S6000x256_0_0 : S60000x256.Slices ![0, 0] S6000x256
  bcast_S_S60000 : S_.BroadcastsInDim S60000 (![] : Fin 0 → Fin S60000.rank)
  bcast_S60000_S60000x1_0 : S60000.BroadcastsInDim S60000x1 (![0] : Fin 1 → Fin S60000x1.rank)
  bcast_S_S6000x256 : S_.BroadcastsInDim S6000x256 (![] : Fin 0 → Fin S6000x256.rank)
  bcast_S_S6000x1 : S_.BroadcastsInDim S6000x1 (![] : Fin 0 → Fin S6000x1.rank)
  bcast_S6000x1_S6000x256_0_1 : S6000x1.BroadcastsInDim S6000x256 (![0, 1] : Fin 2 → Fin S6000x256.rank)
  bcast_S1x256_S6000x256_0_1 : S1x256.BroadcastsInDim S6000x256 (![0, 1] : Fin 2 → Fin S6000x256.rank)
  slices_S6000x256_S1024x256_0_0 : S6000x256.Slices ![0, 0] S1024x256
  bcast_S_S5120 : S_.BroadcastsInDim S5120 (![] : Fin 0 → Fin S5120.rank)
  bcast_S5120_S5120x1_0 : S5120.BroadcastsInDim S5120x1 (![0] : Fin 1 → Fin S5120x1.rank)
  bcast_S_S1024x256 : S_.BroadcastsInDim S1024x256 (![] : Fin 0 → Fin S1024x256.rank)
  bcast_S_S5120x1 : S_.BroadcastsInDim S5120x1 (![] : Fin 0 → Fin S5120x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  reducesTo_S1024x47_S1024_d1 : S1024x47.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x47_0_1 : S1024x1.BroadcastsInDim S1024x47 (![0, 1] : Fin 2 → Fin S1024x47.rank)
  gather_S900000x100_S900000x1_S900000x100_1_0_n_n_0_1_1100_wf : GatherDims.WF S900000x100 S900000x1 S900000x100 [1] [0] [] [0] [] 1 ![1, 100]
  scatter_S60000x100_S900000x1_S900000x100_1_0_0_1_wf : ScatterDims.WF S60000x100 S900000x1 S900000x100 [1] [0] [0] 1
  scatter_S60000x1_S900000x1_S900000x1_1_0_0_1_wf : ScatterDims.WF S60000x1 S900000x1 S900000x1 [1] [0] [0] 1
  dot_S60000x100_S100x256_S60000x256_1_0_0_1_n_n_wf : DotDims.WF S60000x100 S100x256 S60000x256 [1] [0] [0] [1] [] []
  gather_S60000x256_S60000x1_S60000x256_1_0_n_n_0_1_1256_wf : GatherDims.WF S60000x256 S60000x1 S60000x256 [1] [0] [] [0] [] 1 ![1, 256]
  scatter_S6000x256_S60000x1_S60000x256_1_0_0_1_wf : ScatterDims.WF S6000x256 S60000x1 S60000x256 [1] [0] [0] 1
  scatter_S6000x1_S60000x1_S60000x1_1_0_0_1_wf : ScatterDims.WF S6000x1 S60000x1 S60000x1 [1] [0] [0] 1
  dot_S6000x256_S256x256_S6000x256_1_0_0_1_n_n_wf : DotDims.WF S6000x256 S256x256 S6000x256 [1] [0] [0] [1] [] []
  gather_S6000x256_S5120x1_S5120x256_1_0_n_n_0_1_1256_wf : GatherDims.WF S6000x256 S5120x1 S5120x256 [1] [0] [] [0] [] 1 ![1, 256]
  scatter_S1024x256_S5120x1_S5120x256_1_0_0_1_wf : ScatterDims.WF S1024x256 S5120x1 S5120x256 [1] [0] [0] 1
  scatter_S1024x1_S5120x1_S5120x1_1_0_0_1_wf : ScatterDims.WF S1024x1 S5120x1 S5120x1 [1] [0] [0] 1
  dot_S1024x256_S256x47_S1024x47_1_0_0_1_n_n_wf : DotDims.WF S1024x256 S256x47 S1024x47 [1] [0] [0] [1] [] []

variable [Facts₀]

def gather_S900000x100_S900000x1_S900000x100_1_0_n_n_0_1_1100 : GatherDims S900000x100 S900000x1 S900000x100 where
  offsetDims := [1]
  collapsedSliceDims := [0]
  operandBatchingDims := []
  startIndicesBatchingDims := []
  startIndexMap := [0]
  indexVectorDim := 1
  sliceSizes := ![1, 100]
  wf := gather_S900000x100_S900000x1_S900000x100_1_0_n_n_0_1_1100_wf
def scatter_S60000x100_S900000x1_S900000x100_1_0_0_1 : ScatterDims S60000x100 S900000x1 S900000x100 where
  updateWindowDims := [1]
  insertedWindowDims := [0]
  scatterDimsToOperandDims := [0]
  indexVectorDim := 1
  wf := scatter_S60000x100_S900000x1_S900000x100_1_0_0_1_wf
def scatter_S60000x1_S900000x1_S900000x1_1_0_0_1 : ScatterDims S60000x1 S900000x1 S900000x1 where
  updateWindowDims := [1]
  insertedWindowDims := [0]
  scatterDimsToOperandDims := [0]
  indexVectorDim := 1
  wf := scatter_S60000x1_S900000x1_S900000x1_1_0_0_1_wf
def dot_S60000x100_S100x256_S60000x256_1_0_0_1_n_n : DotDims S60000x100 S100x256 S60000x256 where
  lhsContracting := [1]
  rhsContracting := [0]
  lhsNonContracting := [0]
  rhsNonContracting := [1]
  lhsBatch := []
  rhsBatch := []
  wf := dot_S60000x100_S100x256_S60000x256_1_0_0_1_n_n_wf
def gather_S60000x256_S60000x1_S60000x256_1_0_n_n_0_1_1256 : GatherDims S60000x256 S60000x1 S60000x256 where
  offsetDims := [1]
  collapsedSliceDims := [0]
  operandBatchingDims := []
  startIndicesBatchingDims := []
  startIndexMap := [0]
  indexVectorDim := 1
  sliceSizes := ![1, 256]
  wf := gather_S60000x256_S60000x1_S60000x256_1_0_n_n_0_1_1256_wf
def scatter_S6000x256_S60000x1_S60000x256_1_0_0_1 : ScatterDims S6000x256 S60000x1 S60000x256 where
  updateWindowDims := [1]
  insertedWindowDims := [0]
  scatterDimsToOperandDims := [0]
  indexVectorDim := 1
  wf := scatter_S6000x256_S60000x1_S60000x256_1_0_0_1_wf
def scatter_S6000x1_S60000x1_S60000x1_1_0_0_1 : ScatterDims S6000x1 S60000x1 S60000x1 where
  updateWindowDims := [1]
  insertedWindowDims := [0]
  scatterDimsToOperandDims := [0]
  indexVectorDim := 1
  wf := scatter_S6000x1_S60000x1_S60000x1_1_0_0_1_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf
def gather_S6000x256_S5120x1_S5120x256_1_0_n_n_0_1_1256 : GatherDims S6000x256 S5120x1 S5120x256 where
  offsetDims := [1]
  collapsedSliceDims := [0]
  operandBatchingDims := []
  startIndicesBatchingDims := []
  startIndexMap := [0]
  indexVectorDim := 1
  sliceSizes := ![1, 256]
  wf := gather_S6000x256_S5120x1_S5120x256_1_0_n_n_0_1_1256_wf
def scatter_S1024x256_S5120x1_S5120x256_1_0_0_1 : ScatterDims S1024x256 S5120x1 S5120x256 where
  updateWindowDims := [1]
  insertedWindowDims := [0]
  scatterDimsToOperandDims := [0]
  indexVectorDim := 1
  wf := scatter_S1024x256_S5120x1_S5120x256_1_0_0_1_wf
def scatter_S1024x1_S5120x1_S5120x1_1_0_0_1 : ScatterDims S1024x1 S5120x1 S5120x1 where
  updateWindowDims := [1]
  insertedWindowDims := [0]
  scatterDimsToOperandDims := [0]
  indexVectorDim := 1
  wf := scatter_S1024x1_S5120x1_S5120x1_1_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.KernelRun.lean ====
/-
  The kernel program's run with its result named: every weakly fair execution of the three kernels and the host
  operations between them terminates, nothing faulting, with the result buffer holding what the last kernel's
  write-backs leave in it (the last boundary's contents of the run's fold through the program) and the sixteen
  argument arrays as launched.
-/
import proofs.«127017_j11390253269762_1_alg».proof.Proof.Gen.KernelIdeal.Frame

set_option maxRecDepth 16384

noncomputable section

namespace Cert.KernelIdeal.GenRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's six segments: the final state has every unscoped buffer at the last boundary's
    contents; the result buffer is read there as it stands, each argument walked back to the launch memory. -/
theorem run_result : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.GenRun

end
-- ==== Proof.Spec.lean ====
/-
  The specification of the three-layer mean-aggregating graph network, as one function of the argument arrays,
  written layer by layer in the host's operations.

  A layer takes the node features h of its source nodes, an edge list (src, dst) and weights Wl, Wr, b. For every
  target node r it averages the features of the sources of the edges ending at r,
      mean(r, ·) = (Σ_{e : dst e = r} h(src e, ·)) / max(#{e : dst e = r}, 1),
  (a negative source index counts from the end; the sum is a scatter-add into zeros, the count a scatter-add of
  ones), and returns  mean · Wl + h[:n_tgt] · Wr + b. Layers 0 and 1 apply max(·, 0); the last layer applies the
  row-wise log-softmax  s − log Σ_k exp s(·, k)  with  s = v − max_k v(·, k).
-/
import proofs.«127017_j11390253269762_1_alg».proof.Proof.Gen.ReferenceIdeal

noncomputable section

namespace Cert.Sage

open Cert.ReferenceIdeal Cert.ReferenceIdeal.Gen Idealize.ShloMosaic

variable {F : FTy → Type} [FloatOps F]

/-! ## Layer 0: 900000 source nodes, 60000 targets, 100 → 256 features -/

/-- The neighbourhood mean of layer 0. -/
def mean0 (x : (⟨S900000x100, .f32⟩ : BufTy).Contents (Elt F)) (src dst : (⟨S900000, .i32⟩ : BufTy).Contents (Elt F)) : (⟨S60000x100, .f32⟩ : BufTy).Contents (Elt F) :=
  (Host.divf (Host.scatterAdd scatter_S60000x100_S900000x1_S900000x100_1_0_0_1 (broadcastInDim S60000x100 ![] bcast_S_S60000x100 (constant S_ .f32 0x00000000#32)) (broadcastInDim S900000x1 ![0] bcast_S900000_S900000x1_0 dst) (Host.gather gather_S900000x100_S900000x1_S900000x100_1_0_n_n_0_1_1100 x (broadcastInDim S900000x1 ![0] bcast_S900000_S900000x1_0 (select (cmpi .slt src (broadcastInDim S900000 ![] bcast_S_S900000 (constantI S_ 32 0#32))) (addi src (broadcastInDim S900000 ![] bcast_S_S900000 (constantI S_ 32 900000#32))) src)))) (broadcastInDim S60000x100 ![0, 1] bcast_S60000x1_S60000x100_0_1 (maximumf (Host.scatterAdd scatter_S60000x1_S900000x1_S900000x1_1_0_0_1 (broadcastInDim S60000x1 ![] bcast_S_S60000x1 (constant S_ .f32 0x00000000#32)) (broadcastInDim S900000x1 ![0] bcast_S900000_S900000x1_0 dst) (broadcastInDim S900000x1 ![] bcast_S_S900000x1 (constant S_ .f32 0x3F800000#32))) (broadcastInDim S60000x1 ![] bcast_S_S60000x1 (constant S_ .f32 0x3F800000#32)))))

/-- The targets' own features: the first 60000 rows. -/
def self0 (x : (⟨S900000x100, .f32⟩ : BufTy).Contents (Elt F)) : (⟨S60000x100, .f32⟩ : BufTy).Contents (Elt F) :=
  (extractStridedSlice S60000x100 ![0, 0] x slices_S900000x100_S60000x100_0_0)

/-- max(mean · Wl + self · Wr + b, 0). -/
def dense0 (mean xt : (⟨S60000x100, .f32⟩ : BufTy).Contents (Elt F)) (wl wr : (⟨S100x256, .f32⟩ : BufTy).Contents (Elt F)) (b : (⟨S256, .f32⟩ : BufTy).Contents (Elt F)) : (⟨S60000x256, .f32⟩ : BufTy).Contents (Elt F) :=
  (maximumf (addf (addf (Host.dotGeneral dot_S60000x100_S100x256_S60000x256_1_0_0_1_n_n none mean wl) (Host.dotGeneral dot_S60000x100_S100x256_S60000x256_1_0_0_1_n_n none xt wr)) (broadcastInDim S60000x256 ![0, 1] bcast_S1x256_S60000x256_0_1 (broadcastInDim S1x256 ![1] bcast_S256_S1x256_1 b))) (broadcastInDim S60000x256 ![] bcast_S_S60000x256 (constant S_ .f32 0x00000000#32)))

/-! ## Layer 1: 60000 source nodes, 6000 targets, 256 → 256 features -/

/-- The neighbourhood mean of layer 1. -/
def mean1 (hprev : (⟨S60000x256, .f32⟩ : BufTy).Contents (Elt F)) (src dst : (⟨S60000, .i32⟩ : BufTy).Contents (Elt F)) : (⟨S6000x256, .f32⟩ : BufTy).Contents (Elt F) :=
  (Host.divf (Host.scatterAdd scatter_S6000x256_S60000x1_S60000x256_1_0_0_1 (broadcastInDim S6000x256 ![] bcast_S_S6000x256 (constant S_ .f32 0x00000000#32)) (broadcastInDim S60000x1 ![0] bcast_S60000_S60000x1_0 dst) (Host.gather gather_S60000x256_S60000x1_S60000x256_1_0_n_n_0_1_1256 hprev (broadcastInDim S60000x1 ![0] bcast_S60000_S60000x1_0 (select (cmpi .slt src (broadcastInDim S60000 ![] bcast_S_S60000 (constantI S_ 32 0#32))) (addi src (broadcastInDim S60000 ![] bcast_S_S60000 (constantI S_ 32 60000#32))) src)))) (broadcastInDim S6000x256 ![0, 1] bcast_S6000x1_S6000x256_0_1 (maximumf (Host.scatterAdd scatter_S6000x1_S60000x1_S60000x1_1_0_0_1 (broadcastInDim S6000x1 ![] bcast_S_S6000x1 (constant S_ .f32 0x00000000#32)) (broadcastInDim S60000x1 ![0] bcast_S60000_S60000x1_0 dst) (broadcastInDim S60000x1 ![] bcast_S_S60000x1 (constant S_ .f32 0x3F800000#32))) (broadcastInDim S6000x1 ![] bcast_S_S6000x1 (constant S_ .f32 0x3F800000#32)))))

/-- The targets' own features: the first 6000 rows. -/
def self1 (hprev : (⟨S60000x256, .f32⟩ : BufTy).Contents (Elt F)) : (⟨S6000x256, .f32⟩ : BufTy).Contents (Elt F) :=
  (extractStridedSlice S6000x256 ![0, 0] hprev slices_S60000x256_S6000x256_0_0)

/-- max(mean · Wl + self · Wr + b, 0). -/
def dense1 (mean xt : (⟨S6000x256, .f32⟩ : BufTy).Contents (Elt F)) (wl wr : (⟨S256x256, .f32⟩ : BufTy).Contents (Elt F)) (b : (⟨S256, .f32⟩ : BufTy).Contents (Elt F)) : (⟨S6000x256, .f32⟩ : BufTy).Contents (Elt F) :=
  (maximumf (addf (addf (Host.dotGeneral dot_S6000x256_S256x256_S6000x256_1_0_0_1_n_n none mean wl) (Host.dotGeneral dot_S6000x256_S256x256_S6000x256_1_0_0_1_n_n none xt wr)) (broadcastInDim S6000x256 ![0, 1] bcast_S1x256_S6000x256_0_1 (broadcastInDim S1x256 ![1] bcast_S256_S1x256_1 b))) (broadcastInDim S6000x256 ![] bcast_S_S6000x256 (constant S_ .f32 0x00000000#32)))

/-! ## Layer 2: 6000 source nodes, 1024 targets, 256 → 47 classes -/

/-- The neighbourhood mean of layer 2. -/
def mean2 (hprev : (⟨S6000x256, .f32⟩ : BufTy).Contents (Elt F)) (src dst : (⟨S5120, .i32⟩ : BufTy).Contents (Elt F)) : (⟨S1024x256, .f32⟩ : BufTy).Contents (Elt F) :=
  (Host.divf (Host.scatterAdd scatter_S1024x256_S5120x1_S5120x256_1_0_0_1 (broadcastInDim S1024x256 ![] bcast_S_S1024x256 (constant S_ .f32 0x00000000#32)) (broadcastInDim S5120x1 ![0] bcast_S5120_S5120x1_0 dst) (Host.gather gather_S6000x256_S5120x1_S5120x256_1_0_n_n_0_1_1256 hprev (broadcastInDim S5120x1 ![0] bcast_S5120_S5120x1_0 (select (cmpi .slt src (broadcastInDim S5120 ![] bcast_S_S5120 (constantI S_ 32 0#32))) (addi src (broadcastInDim S5120 ![] bcast_S_S5120 (constantI S_ 32 6000#32))) src)))) (broadcastInDim S1024x256 ![0, 1] bcast_S1024x1_S1024x256_0_1 (maximumf (Host.scatterAdd scatter_S1024x1_S5120x1_S5120x1_1_0_0_1 (broadcastInDim S1024x1 ![] bcast_S_S1024x1 (constant S_ .f32 0x00000000#32)) (broadcastInDim S5120x1 ![0] bcast_S5120_S5120x1_0 dst) (broadcastInDim S5120x1 ![] bcast_S_S5120x1 (constant S_ .f32 0x3F800000#32))) (broadcastInDim S1024x1 ![] bcast_S_S1024x1 (constant S_ .f32 0x3F800000#32)))))

/-- The targets' own features: the first 1024 rows. -/
def self2 (hprev : (⟨S6000x256, .f32⟩ : BufTy).Contents (Elt F)) : (⟨S1024x256, .f32⟩ : BufTy).Contents (Elt F) :=
  (extractStridedSlice S1024x256 ![0, 0] hprev slices_S6000x256_S1024x256_0_0)

/-- mean · Wl + self · Wr + b (no rectifier on the last layer). -/
def dense2 (mean xt : (⟨S1024x256, .f32⟩ : BufTy).Contents (Elt F)) (wl wr : (⟨S256x47, .f32⟩ : BufTy).Contents (Elt F)) (b : (⟨S47, .f32⟩ : BufTy).Contents (Elt F)) : (⟨S1024x47, .f32⟩ : BufTy).Contents (Elt F) :=
  (addf (addf (Host.dotGeneral dot_S1024x256_S256x47_S1024x47_1_0_0_1_n_n none mean wl) (Host.dotGeneral dot_S1024x256_S256x47_S1024x47_1_0_0_1_n_n none xt wr)) (broadcastInDim S1024x47 ![0, 1] bcast_S1x47_S1024x47_0_1 (broadcastInDim S1x47 ![1] bcast_S47_S1x47_1 b)))

/-- Row-wise log-softmax: with s = v − max_k v(·, k), the result is s − log Σ_k exp s(·, k). -/
def logSoftmax (v : (⟨S1024x47, .f32⟩ : BufTy).Contents (Elt F)) : (⟨S1024x47, .f32⟩ : BufTy).Contents (Elt F) :=
  subf (subf v (broadcastInDim S1024x47 ![0, 1] bcast_S1024x1_S1024x47_0_1 (broadcastInDim S1024x1 ![0] bcast_S1024_S1024x1_0 (maximumf (broadcastInDim S1024 ![] bcast_S_S1024 (constant S_ .f32 0xFF800000#32)) (Host.reduce FloatOps.maximumf v (constant S_ .f32 0xFF800000#32) reducesTo_S1024x47_S1024_d1 h_S_))))) (broadcastInDim S1024x47 ![0, 1] bcast_S1024x1_S1024x47_0_1 (Host.log (broadcastInDim S1024x1 ![0] bcast_S1024_S1024x1_0 (Host.reduceAdd (Host.exp (subf v (broadcastInDim S1024x47 ![0, 1] bcast_S1024x1_S1024x47_0_1 (broadcastInDim S1024x1 ![0] bcast_S1024_S1024x1_0 (maximumf (broadcastInDim S1024 ![] bcast_S_S1024 (constant S_ .f32 0xFF800000#32)) (Host.reduce FloatOps.maximumf v (constant S_ .f32 0xFF800000#32) reducesTo_S1024x47_S1024_d1 h_S_)))))) (constant S_ .f32 0x00000000#32) reducesTo_S1024x47_S1024_d1 h_S_))))

/-! ## The network -/

/-- Layer 0's output. -/
def h0 (x : (⟨S900000x100, .f32⟩ : BufTy).Contents (Elt F)) (src0 dst0 : (⟨S900000, .i32⟩ : BufTy).Contents (Elt F))
    (wl0 wr0 : (⟨S100x256, .f32⟩ : BufTy).Contents (Elt F)) (b0 : (⟨S256, .f32⟩ : BufTy).Contents (Elt F)) : (⟨S60000x256, .f32⟩ : BufTy).Contents (Elt F) :=
  dense0 (mean0 x src0 dst0) (self0 x) wl0 wr0 b0

/-- Layer 1's output from layer 0's. -/
def h1 (hp : (⟨S60000x256, .f32⟩ : BufTy).Contents (Elt F)) (src1 dst1 : (⟨S60000, .i32⟩ : BufTy).Contents (Elt F))
    (wl1 wr1 : (⟨S256x256, .f32⟩ : BufTy).Contents (Elt F)) (b1 : (⟨S256, .f32⟩ : BufTy).Contents (Elt F)) : (⟨S6000x256, .f32⟩ : BufTy).Contents (Elt F) :=
  dense1 (mean1 hp src1 dst1) (self1 hp) wl1 wr1 b1

/-- The class log-probabilities from layer 1's output. -/
def h2 (hp : (⟨S6000x256, .f32⟩ : BufTy).Contents (Elt F)) (src2 dst2 : (⟨S5120, .i32⟩ : BufTy).Contents (Elt F))
    (wl2 wr2 : (⟨S256x47, .f32⟩ : BufTy).Contents (Elt F)) (b2 : (⟨S47, .f32⟩ : BufTy).Contents (Elt F)) : (⟨S1024x47, .f32⟩ : BufTy).Contents (Elt F) :=
  logSoftmax (dense2 (mean2 hp src2 dst2) (self2 hp) wl2 wr2 b2)

end Cert.Sage

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«127017_j11390253269762_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«127017_j11390253269762_1_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.LibGroupSum.lean ====
/-
  Two facts about sums along an axis, for a program that works through a [B, ·] array R rows at a time and a program
  that works on the whole array at once, both on the extended reals.

  The grouping product. A [B, G, D] array x, flattened to [B, G·D], has entry (r, g·D + d) = x(r, g, d). Let m be the
  [G·D, D] matrix with m(j, d) = 1 when j mod D = d and 0 otherwise. Entry (p, d) of the product of the R rows of the
  flattened array with m is the sum over j of x'(p, j) · m(j, d); the terms with j mod D ≠ d are x'(p, j) · 0 = 0, the
  others are x'(p, j) · 1 = x'(p, j) (both hold for every extended real, the infinite ones included), and the indices j
  with j mod D = d are exactly g·D + d for g < G. So the product is the sum over g of x(row p, g, d): the R rows of
  the sum of x over its middle axis.

  The row sums kept as a column. If x' is R rows of x, the column [R, 1] of the row sums of x' is the same R rows of the
  column [B, 1] of the row sums of x.
-/
import proofs.«127017_j11390253269762_1_alg».proof.Proof.LibRowBlock

noncomputable section

open scoped BigOperators

namespace Idealize.ShloMosaic.RowBlock

open Idealize.ShloMosaic Idealize.ShloMosaic.ValueIdx

/-! ## The grouping product -/

/-- The position g·D + d of entry (g, d) in a flattened [G, D] array is below G·D. -/
theorem group_index_lt {G D : ℕ} (g : Fin G) (d : Fin D) : g.val * D + d.val < G * D :=
  calc g.val * D + d.val < g.val * D + D := Nat.add_lt_add_left d.isLt _
    _ = (g.val + 1) * D := (Nat.succ_mul _ _).symm
    _ ≤ G * D := Nat.mul_le_mul_right _ g.isLt

/-- A sum over j < G·D of a(j) · [j mod D = d] is the sum over g < G of a(g·D + d): a term with j mod D ≠ d is
    a(j) · 0 = 0, a term with j mod D = d is a(j) · 1 = a(j), and j ↦ (j div D, j mod D) pairs the positions below G·D
    with the pairs (g, d'). On the extended reals b · 1 = b and b · 0 = 0 hold for every b, the infinite ones included, so nothing is asked of a. -/
theorem sum_mul_indicator_mod {G D : ℕ} (a : Fin (G * D) → EReal) (d : Fin D) :
    ∑ j : Fin (G * D), a j * (if j.val % D = d.val then (1 : EReal) else 0)
      = ∑ g : Fin G, a ⟨g.val * D + d.val, group_index_lt g d⟩ := by
  have hterm : ∀ j : Fin (G * D), a j * (if j.val % D = d.val then (1 : EReal) else 0) = if j.val % D = d.val then a j else 0 := by
    intro j
    split
    · exact mul_one _
    · exact mul_zero _
  rw [Finset.sum_congr rfl fun j _ => hterm j, ← Equiv.sum_comp finProdFinEquiv, Fintype.sum_prod_type]
  refine Finset.sum_congr rfl fun g _ => ?_
  have hval : ∀ d' : Fin D, (finProdFinEquiv (g, d')).val = d'.val + D * g.val := fun _ => rfl
  have hinner : ∀ d' : Fin D,
      (if (finProdFinEquiv (g, d')).val % D = d.val then a (finProdFinEquiv (g, d')) else 0)
        = if d' = d then a (finProdFinEquiv (g, d')) else 0 := by
    intro d'
    have hm : (finProdFinEquiv (g, d')).val % D = d'.val := by
      rw [hval, Nat.add_mul_mod_self_left]; exact Nat.mod_eq_of_lt d'.isLt
    by_cases hd : d' = d
    · rw [if_pos hd, if_pos (by rw [hm, hd])]
    · rw [if_neg hd, if_neg (by rw [hm]; exact fun e => hd (Fin.ext e))]
  rw [Finset.sum_congr rfl fun d' _ => hinner d']
  refine (Fintype.sum_ite_eq' d fun d' => a (finProdFinEquiv (g, d'))).trans ?_
  exact congrArg a (Fin.ext (by rw [hval]; show d.val + D * g.val = g.val * D + d.val; rw [Nat.mul_comm, Nat.add_comm]))

/-- The matrix unit's product of the R rows of a flattened [B, G, D] array with the grouping matrix, into a zero
    accumulator, against the host's sum of the array over its middle axis from the scalar 0: entry (p, d) of either is
    the sum over g of x(row p, g, d). The R rows are given entry by entry: x'(p, g·D + d) = x(row p, g, d). -/
theorem IsRows.groupSum {B R G D N : ℕ} {t : ℕ} {h : t * R + R ≤ B} {φ' φg : FTy} (hN : N = G * D)
    {x' : FVec Ideal ⟨2, ![R, N]⟩ φ'} {x3 : FVec Ideal ⟨3, ![B, G, D]⟩ .f32}
    (hx : ∀ (p : Fin R) (g : Fin G) (d : Fin D) (j : Fin N), j.val = g.val * D + d.val →
      x' (ix2 p j) = x3 (ix3 (row t h p) g d))
    {gm : FVec Ideal ⟨2, ![N, D]⟩ φg}
    (hg : ∀ (j : Fin N) (d : Fin D), gm (ix2 j d) = if j.val % D = d.val then (1 : EReal) else 0)
    (hr : (⟨3, ![B, G, D]⟩ : Shape).ReducesTo [1] ⟨2, ![B, D]⟩) (h0 : 0 < (⟨0, ![]⟩ : Shape).numel) :
    IsRows t h (matmul (DotDims.plain R N D) none x' gm (constant ⟨2, ![R, D]⟩ .f32 0x00000000#32))
      (Host.reduceAdd (F := Ideal) x3 (constant (F := Ideal) ⟨0, ![]⟩ .f32 0x00000000#32) hr h0) := by
  subst hN
  intro p d
  have hR : (⟨3, ![B, G, D]⟩ : Shape).Reduces [1] ⟨2, ![B, D]⟩ := ⟨hr.1, Nat.two_pos, hr.2⟩
  have hlift : ∀ g : Fin G, hR.lift (ix2 (row t h p) d) g = ix3 (row t h p) g d := by
    intro g
    funext c
    apply Fin.ext
    match c with
    | ⟨0, _⟩ => rfl
    | ⟨1, _⟩ => rfl
    | ⟨2, _⟩ => rfl
  have hhost : Host.reduceAdd (F := Ideal) x3 (constant (F := Ideal) ⟨0, ![]⟩ .f32 0x00000000#32) hr h0 (ix2 (row t h p) d)
      = ∑ g : Fin G, x3 (ix3 (row t h p) g d) := by
    refine (hostReduceAdd_apply x3 _ hr h0 (ix2 (row t h p) d)).trans ?_
    refine (Ideal.hostReduceAdd_single hr hR x3 _ (ix2 (row t h p) d)).trans ?_
    show Ideal.ofBits .f32 0x00000000#32 + ∑ g : Fin G, x3 (hR.lift (ix2 (row t h p) d) g) = _
    rw [Ideal.ofBits_zero_f32, zero_add]
    exact Finset.sum_congr rfl fun g _ => congrArg x3 (hlift g)
  rw [hhost, PlainProduct.matmul_zero_at R (G * D) D x' gm p d,
    Finset.sum_congr rfl fun (j : Fin (G * D)) _ => congrArg (x' (ix2 p j) * ·) (hg j d)]
  refine (sum_mul_indicator_mod (fun j => x' (ix2 p j)) d).trans ?_
  exact Finset.sum_congr rfl fun g _ => hx p g d _ rfl

/-! ## Row sums kept as a column -/

section Column

variable {α : Type}

/-- An [a] array cast to a column [a, 1] reads, at (i, u), the operand at i, whatever the unit coordinate u. -/
theorem shapeCast_a_a1_apply {a : ℕ} (x : (⟨1, ![a]⟩ : Shape).Idx → α) (hc : (⟨1, ![a]⟩ : Shape).ShapeCasts ⟨2, ![a, 1]⟩)
    (i : Fin a) (u : Fin 1) : shapeCast ⟨2, ![a, 1]⟩ x hc (ix2 i u) = x (ix1 i) :=
  shapeCast_apply x hc _ _ (by
    have hu : u.val = 0 := by omega
    rw [Shape.rowMajor_val_two, Shape.rowMajor_val_one]
    show i.val = i.val * 1 + u.val
    rw [hu, Nat.mul_one, Nat.add_zero])

/-- An [a] array broadcast to a column [a, 1] along its own axis (the new axis is the unit one) reads, at (i, u), the
    operand at i. -/
theorem broadcastInDim_a_a1_apply {a : ℕ} (x : (⟨1, ![a]⟩ : Shape).Idx → α)
    (hb : (⟨1, ![a]⟩ : Shape).BroadcastsInDim ⟨2, ![a, 1]⟩ ![0]) (i : Fin a) (u : Fin 1) :
    broadcastInDim ⟨2, ![a, 1]⟩ ![0] hb x (ix2 i u) = x (ix1 i) := by
  refine broadcastInDim_apply ![0] hb x (ix2 i u) (ix1 i) fun ax => ?_
  match ax with
  | ⟨0, _⟩ =>
    show i.val = if a = 1 then 0 else i.val
    split
    · have := i.isLt; omega
    · rfl

end Column

/-- The column [R, 1] of the row sums of the R rows (the vector unit's sum along axis 1 from the zero pattern, cast to a
    column) against the R rows of the column [B, 1] of the row sums of the whole array (the host's sum over axis 1 from
    the scalar 0, broadcast to a column): entry (p, 0) of either is the sum over k of x(row p, k). -/
theorem IsRows.rowSumKeepdims {B R n : ℕ} {t : ℕ} {h : t * R + R ≤ B}
    {x' : FVec Ideal ⟨2, ![R, n]⟩ .f32} {x : FVec Ideal ⟨2, ![B, n]⟩ .f32} (hx : IsRows t h x' x)
    (hred : (⟨2, ![R, n]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hr : (⟨2, ![B, n]⟩ : Shape).ReducesTo [1] ⟨1, ![B]⟩) (h0 : 0 < (⟨0, ![]⟩ : Shape).numel)
    (hb : (⟨1, ![B]⟩ : Shape).BroadcastsInDim ⟨2, ![B, 1]⟩ ![0]) :
    IsRows t h (shapeCast ⟨2, ![R, 1]⟩ (multiReduction .add [1] ⟨1, ![R]⟩ x' 0x00000000#32 hred hφ hacc) hc)
      (broadcastInDim ⟨2, ![B, 1]⟩ ![0] hb
        (Host.reduceAdd (F := Ideal) x (constant (F := Ideal) ⟨0, ![]⟩ .f32 0x00000000#32) hr h0)) := by
  intro p u
  have hR : (⟨2, ![B, n]⟩ : Shape).Reduces [1] ⟨1, ![B]⟩ := ⟨hr.1, Nat.one_pos, hr.2⟩
  have e1 : ∀ k : Fin n, hR.lift (ix1 (row t h p)) k = ix2 (row t h p) k := by
    intro k
    funext c
    apply Fin.ext
    match c with
    | ⟨0, _⟩ => rfl
    | ⟨1, _⟩ => rfl
  have e2 : ∀ k : Fin n, hred.lift (ix1 p) k = ix2 p k := by
    intro k
    funext c
    apply Fin.ext
    match c with
    | ⟨0, _⟩ => rfl
    | ⟨1, _⟩ => rfl
  refine (shapeCast_a_a1_apply _ hc p u).trans ?_
  refine Eq.trans ?_ (broadcastInDim_a_a1_apply _ hb (row t h p) u).symm
  refine (Ideal.multiReduction_add_single x' 0x00000000#32 hred hφ hacc (ix1 p)).trans ?_
  refine Eq.symm ((hostReduceAdd_apply x _ hr h0 (ix1 (row t h p))).trans ?_)
  refine (Ideal.hostReduceAdd_single hr hR x _ (ix1 (row t h p))).trans ?_
  show Ideal.ofBits .f32 0x00000000#32 + ∑ k : Fin n, x (hR.lift (ix1 (row t h p)) k) = ∑ k : Fin n, x' (hred.lift (ix1 p) k)
  rw [Ideal.ofBits_zero_f32, zero_add]
  exact Finset.sum_congr rfl fun k _ => by rw [e1 k, e2 k]; exact (hx p k).symm

end Idealize.ShloMosaic.RowBlock

end
-- ==== Proof.LibRowExtrema.lean ====
/-
  Row extrema of an [a, b] array of extended reals read at a row, as a supremum or an infimum over the row: the
  vector unit's reduction along the last axis started from -inf (maximum) or +inf (minimum), and the host's reduction
  along the last axis from a scalar initial value that is -inf or +inf. A fold of max from the bottom element is the
  supremum, a fold of min from the top element the infimum; so a row extremum taken tile by tile and one taken on
  the whole row can be compared by the order alone.
-/
import Idealize.ShloMosaic.PureOps.Ideal.Laws
import Idealize.ShloMosaic.Lib.ValueIdx

noncomputable section

namespace Cert.Lib.RowExtrema

open Idealize.ShloMosaic Idealize.ShloMosaic.ValueIdx

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A fold of `max` from the bottom element is the supremum. -/
theorem fold_max_bot {ι : Type} (s : Finset ι) (f : ι → EReal) : s.fold max ⊥ f = s.sup f := rfl
/-- A fold of `min` from the top element is the infimum. -/
theorem fold_min_top {ι : Type} (s : Finset ι) (f : ι → EReal) : s.fold min ⊤ f = s.inf f := rfl

/-- The vector unit's maximum over the last axis of an `[a, b]` array from -inf, at row `r`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).sup (fun k => src (ix2 r k)) := by
  have e : (Finset.univ : Finset (Fin b)).fold max (Ideal.ofBits .f32 0xFF800000#32) (fun k => src (ix2 r k))
      = (Finset.univ : Finset (Fin b)).sup (fun k => src (ix2 r k)) := by rw [negInf_f32]; rfl
  refine (Ideal.multiReduction_maximumf_single src _ h hφ hacc (ix1 r)).trans (Eq.trans ?_ e)
  exact congrArg (fun f : Fin b → EReal => (Finset.univ : Finset (Fin b)).fold max (Ideal.ofBits .f32 0xFF800000#32) f)
    (funext fun k => congrArg src (funext fun ax => Fin.ext (by
      match ax with
      | ⟨0, _⟩ => rfl
      | ⟨1, _⟩ => rfl)))

/-- The vector unit's minimum over the last axis of an `[a, b]` array from +inf, at row `r`. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun k => src (ix2 r k)) := by
  have e : (Finset.univ : Finset (Fin b)).fold min (Ideal.ofBits .f32 0x7F800000#32) (fun k => src (ix2 r k))
      = (Finset.univ : Finset (Fin b)).inf (fun k => src (ix2 r k)) := by rw [posInf_f32]; rfl
  rw [multiReduction_minimumf_eq_fold]
  refine (h.fold_filter_drop_single _ _ src (ix1 r)).trans (Eq.trans ?_ e)
  exact congrArg (fun f : Fin b → EReal => (Finset.univ : Finset (Fin b)).fold min (Ideal.ofBits .f32 0x7F800000#32) f)
    (funext fun k => congrArg src (funext fun ax => Fin.ext (by
      match ax with
      | ⟨0, _⟩ => rfl
      | ⟨1, _⟩ => rfl)))

/-- The host's maximum over the last axis of an `[a, b]` array from a scalar initial value that is -inf, at row `r`. -/
theorem hostRowMax_apply {a b : ℕ} (x : FVec Ideal ⟨2, ![a, b]⟩ .f32) (init : (⟨0, ![]⟩ : Shape).Idx → Ideal .f32)
    (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r) = (Finset.univ : Finset (Fin b)).sup (fun k => x (ix2 r k)) := by
  have e : (Finset.univ : Finset (Fin b)).fold max (⊥ : EReal) (fun k => x (ix2 r k))
      = (Finset.univ : Finset (Fin b)).sup (fun k => x (ix2 r k)) := rfl
  refine (Host.reduce_eq_fold_single FloatOps.maximumf x init h' h hu (ix1 r)).trans (Eq.trans ?_ e)
  rw [hinit]
  exact congrArg (fun f : Fin b → EReal => (Finset.univ : Finset (Fin b)).fold max (⊥ : EReal) f)
    (funext fun k => congrArg x (funext fun ax => Fin.ext (by
      match ax with
      | ⟨0, _⟩ => rfl
      | ⟨1, _⟩ => rfl)))

/-- The host's minimum over the last axis of an `[a, b]` array from a scalar initial value that is +inf, at row `r`. -/
theorem hostRowMin_apply {a b : ℕ} (x : FVec Ideal ⟨2, ![a, b]⟩ .f32) (init : (⟨0, ![]⟩ : Shape).Idx → Ideal .f32)
    (hinit : ∀ i, init i = (⊤ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.minimumf x init h' hu (ix1 r) = (Finset.univ : Finset (Fin b)).inf (fun k => x (ix2 r k)) := by
  have e : (Finset.univ : Finset (Fin b)).fold min (⊤ : EReal) (fun k => x (ix2 r k))
      = (Finset.univ : Finset (Fin b)).inf (fun k => x (ix2 r k)) := rfl
  refine (Host.reduce_eq_fold_single FloatOps.minimumf x init h' h hu (ix1 r)).trans (Eq.trans ?_ e)
  rw [hinit]
  exact congrArg (fun f : Fin b → EReal => (Finset.univ : Finset (Fin b)).fold min (⊤ : EReal) f)
    (funext fun k => congrArg x (funext fun ax => Fin.ext (by
      match ax with
      | ⟨0, _⟩ => rfl
      | ⟨1, _⟩ => rfl)))

end Cert.Lib.RowExtrema

end
-- ==== Proof.LibColRow.lean ====
/-
  Columns read at an index: a vector of length a viewed as an [a, 1] column, an [a, 1] column viewed as a vector of
  length a, and an [a, 1] column repeated across b columns; in any element type.
-/
import Idealize.ShloMosaic.Lib.ValueIdx
import Idealize.ShloMosaic.Lib.ValueLayout
import Idealize.ShloMosaic.Lib.Pipeline.Value

namespace Cert.Lib.ColRow

open Idealize.ShloMosaic Idealize.ShloMosaic.ValueIdx

variable {α : Type}

/-- A vector of length `a` viewed as an `[a, 1]` column reads, at `(r, 0)`, the vector at `r`. -/
theorem col_of_vec {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- An `[a, 1]` column viewed as a vector of length `a` reads, at `r`, the column at `(r, 0)`. -/
theorem vec_of_col {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column repeated across `b` columns reads, at `(r, k)`, the column at `(r, 0)`. -/
theorem bcast_col {a b : ℕ} (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) := by
  refine broadcastTo_apply x h (ix2 r k) (ix2 r (0 : Fin 1)) fun ax => ?_
  match ax with
  | ⟨0, _⟩ =>
    show r.val = if a = 1 then 0 else r.val
    split
    · have := r.isLt; omega
    · rfl
  | ⟨1, _⟩ => rfl

end Cert.Lib.ColRow
-- ==== Proof.LibSageRows.lean ====
/-
  Rows t·R … t·R + R − 1 of the layers of a graph network that works on each row by itself, on the extended reals:
  the affine layer  m · Wl + x · Wr + b  (two matrix products with fixed right factors and a bias row added to every
  row), the same layer followed by max(·, 0), and the logarithm of the softmax along each row,
  v − rowmax(v) − log(Σ_k exp(v − rowmax(v))). Each is stated with the R-row side written in the vector unit's
  operations and the whole-array side in the host's: from R rows of the inputs, the R-row program produces the same
  R rows of what the whole-array program produces.
-/
import proofs.«127017_j11390253269762_1_alg».proof.Proof.LibRowBlock
import proofs.«127017_j11390253269762_1_alg».proof.Proof.LibGroupSum
import proofs.«127017_j11390253269762_1_alg».proof.Proof.LibRowExtrema
import proofs.«127017_j11390253269762_1_alg».proof.Proof.LibColRow

noncomputable section

open scoped BigOperators

namespace Cert.Sage.Rows

open Idealize.ShloMosaic Idealize.ShloMosaic.ValueIdx Idealize.ShloMosaic.RowBlock

variable {B R K N n : ℕ} {t : ℕ} {h : t * R + R ≤ B}

/-- The affine layer: the R rows of  m · Wl + x · Wr + b  are that expression of the R rows of m and of x. A change of
    float format is the identity on the extended reals, so the weights on the two sides agree entry by entry. -/
theorem sageAffine_rows {m' xt' : FVec Ideal ⟨2, ![R, K]⟩ .f32} {m xt : FVec Ideal ⟨2, ![B, K]⟩ .f32}
    (wl wr : FVec Ideal ⟨2, ![K, N]⟩ .f32) (b : FVec Ideal ⟨1, ![N]⟩ .f32)
    (hm : IsRows t h m' m) (hx : IsRows t h xt' xt)
    (hc₁ : (⟨2, ![R, K]⟩ : Shape).ShapeCasts ⟨2, ![R, K]⟩) (hψ : FTy.bf16.bits < FTy.f32.bits)
    (hc₂ : (⟨1, ![N]⟩ : Shape).ShapeCasts ⟨2, ![1, N]⟩) (hR : (⟨2, ![1, N]⟩ : Shape).Broadcasts ⟨2, ![R, N]⟩)
    (hb : (⟨1, ![N]⟩ : Shape).BroadcastsInDim ⟨2, ![1, N]⟩ ![1])
    (hB : (⟨2, ![1, N]⟩ : Shape).BroadcastsInDim ⟨2, ![B, N]⟩ ![0, 1]) :
    IsRows t h
      (addf (addf (matmul (DotDims.plain R K N) none (truncf .bf16 (shapeCast ⟨2, ![R, K]⟩ m' hc₁) hψ) (truncf .bf16 wl hψ) (constant ⟨2, ![R, N]⟩ .f32 0x00000000#32))
                  (matmul (DotDims.plain R K N) none (truncf .bf16 (shapeCast ⟨2, ![R, K]⟩ xt' hc₁) hψ) (truncf .bf16 wr hψ) (constant ⟨2, ![R, N]⟩ .f32 0x00000000#32)))
            (broadcastTo ⟨2, ![R, N]⟩ (shapeCast ⟨2, ![1, N]⟩ b hc₂) hR))
      (addf (addf (Host.dotGeneral (DotDims.plain B K N) none m wl) (Host.dotGeneral (DotDims.plain B K N) none xt wr))
            (broadcastInDim ⟨2, ![B, N]⟩ ![0, 1] hB (broadcastInDim ⟨2, ![1, N]⟩ ![1] hb b))) :=
  IsRows.addf
    (IsRows.addf
      (IsRows.dot (IsRows.truncf hψ (IsRows.castSelf hc₁ hm)) (fun _ _ => rfl))
      (IsRows.dot (IsRows.truncf hψ (IsRows.castSelf hc₁ hx)) (fun _ _ => rfl)))
    (IsRows.bias b hc₂ hb hB hR)

/-- The affine layer followed by max(·, 0). -/
theorem sageRelu_rows {m' xt' : FVec Ideal ⟨2, ![R, K]⟩ .f32} {m xt : FVec Ideal ⟨2, ![B, K]⟩ .f32}
    (wl wr : FVec Ideal ⟨2, ![K, N]⟩ .f32) (b : FVec Ideal ⟨1, ![N]⟩ .f32)
    (hm : IsRows t h m' m) (hx : IsRows t h xt' xt)
    (hc₁ : (⟨2, ![R, K]⟩ : Shape).ShapeCasts ⟨2, ![R, K]⟩) (hψ : FTy.bf16.bits < FTy.f32.bits)
    (hc₂ : (⟨1, ![N]⟩ : Shape).ShapeCasts ⟨2, ![1, N]⟩) (hR : (⟨2, ![1, N]⟩ : Shape).Broadcasts ⟨2, ![R, N]⟩)
    (hb : (⟨1, ![N]⟩ : Shape).BroadcastsInDim ⟨2, ![1, N]⟩ ![1])
    (hB : (⟨2, ![1, N]⟩ : Shape).BroadcastsInDim ⟨2, ![B, N]⟩ ![0, 1])
    (hz : (⟨0, ![]⟩ : Shape).BroadcastsInDim ⟨2, ![B, N]⟩ ![]) :
    IsRows t h
      (maximumf
        (addf (addf (matmul (DotDims.plain R K N) none (truncf .bf16 (shapeCast ⟨2, ![R, K]⟩ m' hc₁) hψ) (truncf .bf16 wl hψ) (constant ⟨2, ![R, N]⟩ .f32 0x00000000#32))
                    (matmul (DotDims.plain R K N) none (truncf .bf16 (shapeCast ⟨2, ![R, K]⟩ xt' hc₁) hψ) (truncf .bf16 wr hψ) (constant ⟨2, ![R, N]⟩ .f32 0x00000000#32)))
              (broadcastTo ⟨2, ![R, N]⟩ (shapeCast ⟨2, ![1, N]⟩ b hc₂) hR))
        (broadcast ⟨2, ![R, N]⟩ (Scalar.ofBits (F := Ideal) .f32 0x00000000#32)))
      (maximumf
        (addf (addf (Host.dotGeneral (DotDims.plain B K N) none m wl) (Host.dotGeneral (DotDims.plain B K N) none xt wr))
              (broadcastInDim ⟨2, ![B, N]⟩ ![0, 1] hB (broadcastInDim ⟨2, ![1, N]⟩ ![1] hb b)))
        (broadcastInDim ⟨2, ![B, N]⟩ ![] hz (constant (F := Ideal) ⟨0, ![]⟩ .f32 0x00000000#32))) :=
  IsRows.maximumf (sageAffine_rows wl wr b hm hx hc₁ hψ hc₂ hR hb hB) (IsRows.const (φ := .f32) 0x00000000#32 hz)

/-! ## The logarithm of the softmax along each row -/

section Pointwise

variable {φ φ' : FTy} {a' : FVec Ideal ⟨2, ![R, n]⟩ φ'} {a : FVec Ideal ⟨2, ![B, n]⟩ φ}

/-- The vector unit's exponential against the host's: the same function of each entry. -/
theorem IsRows.exp (ha : IsRows t h a' a) : IsRows t h (exp a') (Host.exp a) :=
  fun p q => congrArg Ideal.exp (ha p q)

/-- The vector unit's logarithm against the host's: the same function of each entry. -/
theorem IsRows.log (ha : IsRows t h a' a) : IsRows t h (log a') (Host.log a) :=
  fun p q => congrArg Ideal.log (ha p q)

end Pointwise

/-- The column [R, 1] of the row maxima of the R rows (the vector unit's maximum along axis 1 from −∞, max'ed with −∞
    once more, cast to a column) against the R rows of the column [B, 1] of the row maxima of the whole array (the
    host's maximum over axis 1 from the scalar −∞, max'ed with −∞ once more, broadcast to a column): entry (p, 0) of
    either is max(−∞, sup_k v(row p, k)). -/
theorem IsRows.rowMaxKeepdims {v' : FVec Ideal ⟨2, ![R, n]⟩ .f32} {v : FVec Ideal ⟨2, ![B, n]⟩ .f32} (hv : IsRows t h v' v)
    (hred : (⟨2, ![R, n]⟩ : Shape).Reduces [1] ⟨1, ![R]⟩) (hφ : FKind.Formats .f32)
    (haccM : (0xFF800000#32 : BitVec 32) = FKind.maximumf.neutral .f32 hφ)
    (hc : (⟨1, ![R]⟩ : Shape).ShapeCasts ⟨2, ![R, 1]⟩)
    (hr : (⟨2, ![B, n]⟩ : Shape).ReducesTo [1] ⟨1, ![B]⟩) (h0 : 0 < (⟨0, ![]⟩ : Shape).numel)
    (hz1 : (⟨0, ![]⟩ : Shape).BroadcastsInDim ⟨1, ![B]⟩ ![])
    (hb1 : (⟨1, ![B]⟩ : Shape).BroadcastsInDim ⟨2, ![B, 1]⟩ ![0]) :
    IsRows t h
      (shapeCast ⟨2, ![R, 1]⟩ (maximumf (broadcast ⟨1, ![R]⟩ (Scalar.ofBits (F := Ideal) .f32 0xFF800000#32))
        (multiReduction .maximumf [1] ⟨1, ![R]⟩ v' 0xFF800000#32 hred hφ haccM)) hc)
      (broadcastInDim ⟨2, ![B, 1]⟩ ![0] hb1
        (maximumf (broadcastInDim ⟨1, ![B]⟩ ![] hz1 (constant (F := Ideal) ⟨0, ![]⟩ .f32 0xFF800000#32))
          (Host.reduce FloatOps.maximumf v (constant (F := Ideal) ⟨0, ![]⟩ .f32 0xFF800000#32) hr h0))) := by
  intro p u
  have hR : (⟨2, ![B, n]⟩ : Shape).Reduces [1] ⟨1, ![B]⟩ := ⟨hr.1, Nat.one_pos, hr.2⟩
  refine (shapeCast_a_a1_apply _ hc p u).trans ?_
  refine Eq.trans ?_ (broadcastInDim_a_a1_apply _ hb1 (row t h p) u).symm
  have ek : multiReduction .maximumf [1] ⟨1, ![R]⟩ v' 0xFF800000#32 hred hφ haccM (ix1 p)
      = (Finset.univ : Finset (Fin n)).sup (fun k => v (ix2 (row t h p) k)) :=
    (Cert.Lib.RowExtrema.rowMax_apply v' hred hφ haccM p).trans (Finset.sup_congr rfl fun k _ => hv p k)
  have eh : Host.reduce FloatOps.maximumf v (constant (F := Ideal) ⟨0, ![]⟩ .f32 0xFF800000#32) hr h0 (ix1 (row t h p))
      = (Finset.univ : Finset (Fin n)).sup (fun k => v (ix2 (row t h p) k)) :=
    Cert.Lib.RowExtrema.hostRowMax_apply v _ (fun _ => Cert.Lib.RowExtrema.negInf_f32) hr hR h0 (row t h p)
  have ec : broadcastInDim ⟨1, ![B]⟩ ![] hz1 (constant (F := Ideal) ⟨0, ![]⟩ .f32 0xFF800000#32) (ix1 (row t h p))
      = Scalar.ofBits (F := Ideal) .f32 0xFF800000#32 :=
    broadcastInDim_apply ![] hz1 (constant (F := Ideal) ⟨0, ![]⟩ .f32 0xFF800000#32) (ix1 (row t h p)) ix0 (fun a => a.elim0)
  show max (Scalar.ofBits (F := Ideal) .f32 0xFF800000#32)
      (multiReduction .maximumf [1] ⟨1, ![R]⟩ v' 0xFF800000#32 hred hφ haccM (ix1 p))
    = max (broadcastInDim ⟨1, ![B]⟩ ![] hz1 (constant (F := Ideal) ⟨0, ![]⟩ .f32 0xFF800000#32) (ix1 (row t h p)))
      (Host.reduce FloatOps.maximumf v (constant (F := Ideal) ⟨0, ![]⟩ .f32 0xFF800000#32) hr h0 (ix1 (row t h p)))
  rw [ek, eh, ec]

/-- The logarithm of the softmax along each row: with s = v − rowmax(v), the result is s − log(Σ_k exp s). Row p of
    either side depends on row p of v alone: its maximum, the differences from it, the sum of their exponentials and
    the logarithm of that sum. -/
theorem logSoftmax_rows {v' : FVec Ideal ⟨2, ![R, n]⟩ .f32} {v : FVec Ideal ⟨2, ![B, n]⟩ .f32} (hv : IsRows t h v' v)
    (hred : (⟨2, ![R, n]⟩ : Shape).Reduces [1] ⟨1, ![R]⟩) (hφ : FKind.Formats .f32)
    (haccM : (0xFF800000#32 : BitVec 32) = FKind.maximumf.neutral .f32 hφ)
    (haccA : (0x00000000#32 : BitVec 32) = FKind.add.neutral .f32 hφ)
    (hc : (⟨1, ![R]⟩ : Shape).ShapeCasts ⟨2, ![R, 1]⟩) (hbR : (⟨2, ![R, 1]⟩ : Shape).Broadcasts ⟨2, ![R, n]⟩)
    (hr : (⟨2, ![B, n]⟩ : Shape).ReducesTo [1] ⟨1, ![B]⟩) (h0 : 0 < (⟨0, ![]⟩ : Shape).numel)
    (hz1 : (⟨0, ![]⟩ : Shape).BroadcastsInDim ⟨1, ![B]⟩ ![])
    (hb1 : (⟨1, ![B]⟩ : Shape).BroadcastsInDim ⟨2, ![B, 1]⟩ ![0])
    (hb2 : (⟨2, ![B, 1]⟩ : Shape).BroadcastsInDim ⟨2, ![B, n]⟩ ![0, 1]) :
    IsRows t h
      (subf (subf v' (broadcastTo ⟨2, ![R, n]⟩ (shapeCast ⟨2, ![R, 1]⟩ (maximumf (broadcast ⟨1, ![R]⟩ (Scalar.ofBits (F := Ideal) .f32 0xFF800000#32)) (multiReduction .maximumf [1] ⟨1, ![R]⟩ v' 0xFF800000#32 hred hφ haccM)) hc) hbR))
            (broadcastTo ⟨2, ![R, n]⟩ (log (shapeCast ⟨2, ![R, 1]⟩ (multiReduction .add [1] ⟨1, ![R]⟩ (exp (subf v' (broadcastTo ⟨2, ![R, n]⟩ (shapeCast ⟨2, ![R, 1]⟩ (maximumf (broadcast ⟨1, ![R]⟩ (Scalar.ofBits (F := Ideal) .f32 0xFF800000#32)) (multiReduction .maximumf [1] ⟨1, ![R]⟩ v' 0xFF800000#32 hred hφ haccM)) hc) hbR))) 0x00000000#32 hred hφ haccA) hc)) hbR))
      (subf (subf v (broadcastInDim ⟨2, ![B, n]⟩ ![0, 1] hb2 (broadcastInDim ⟨2, ![B, 1]⟩ ![0] hb1 (maximumf (broadcastInDim ⟨1, ![B]⟩ ![] hz1 (constant (F := Ideal) ⟨0, ![]⟩ .f32 0xFF800000#32)) (Host.reduce FloatOps.maximumf v (constant (F := Ideal) ⟨0, ![]⟩ .f32 0xFF800000#32) hr h0)))))
            (broadcastInDim ⟨2, ![B, n]⟩ ![0, 1] hb2 (Host.log (broadcastInDim ⟨2, ![B, 1]⟩ ![0] hb1 (Host.reduceAdd (Host.exp (subf v (broadcastInDim ⟨2, ![B, n]⟩ ![0, 1] hb2 (broadcastInDim ⟨2, ![B, 1]⟩ ![0] hb1 (maximumf (broadcastInDim ⟨1, ![B]⟩ ![] hz1 (constant (F := Ideal) ⟨0, ![]⟩ .f32 0xFF800000#32)) (Host.reduce FloatOps.maximumf v (constant (F := Ideal) ⟨0, ![]⟩ .f32 0xFF800000#32) hr h0)))))) (constant (F := Ideal) ⟨0, ![]⟩ .f32 0x00000000#32) hr h0))))) := by
  have hs := IsRows.subf hv
    (IsRows.colBroadcast (IsRows.rowMaxKeepdims hv hred hφ haccM hc hr h0 hz1 hb1) hb2 hbR)
  exact IsRows.subf hs
    (IsRows.colBroadcast
      (IsRows.log (IsRows.rowSumKeepdims (IsRows.exp hs) hred hφ haccA hc hr h0 hb1)) hb2 hbR)

end Cert.Sage.Rows

end
-- ==== Proof.Region0.lean ====
/-
  Layer 0's dense kernel, block by block. The kernel goes through the 60000 target rows 6000 at a time, in 10 grid
  points: at point t it reads rows 6000·t … 6000·t + 5999 of the neighbourhood means and of the targets' own features,
  the whole of both weight matrices and the whole bias, computes max(mean · Wl + self · Wr + b, 0) on those rows and
  writes the result to the same rows of the output. Every operation of the layer works on each row by itself, so what
  point t writes is rows 6000·t … 6000·t + 5999 of the layer applied to the whole arrays; row r of the output is written by
  point r / 6000, so the 10 blocks cover the output, and the output array after the region is the layer of the arrays the
  region's input windows read.
-/
import proofs.«127017_j11390253269762_1_alg».proof.Proof.Gen.KernelIdeal.Frame
import proofs.«127017_j11390253269762_1_alg».proof.Proof.Spec
import proofs.«127017_j11390253269762_1_alg».proof.Proof.LibRowBlock
import proofs.«127017_j11390253269762_1_alg».proof.Proof.LibSageRows
import Idealize.ShloMosaic.Lib.Pipeline.Value

noncomputable section

namespace Cert.Sage.Region0

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowBlock

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## Where each window's block sits -/

/-- The index maps over the grid: the two row-tiled inputs and the output are at block t of their arrays, the weights
    and the bias at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Block t of 6000 rows lies inside the 60000 rows. -/
theorem block_rows_le (t : Fin cfg0.N) : t.val * 6000 + 6000 ≤ 60000 := by
  have := t.isLt; have hN : cfg0.N = 10 := N_0; omega

/-- The block of the neighbourhood means at point t is rows 6000·t … 6000·t + 5999 of their array. -/
theorem mean_block_rows (c : Dev nD) (t : Fin cfg0.N) :
    IsRows t.val (block_rows_le t) (iblk0 V c 0 t : Vec Ideal S6000x100 .f32) (V c main_v18 : S60000x100.Idx → EReal) := by
  intro p q
  obtain ⟨e0, e1, -⟩ := index_maps t
  unfold iblk0
  rw [View.read_apply]
  show V c main_v18 (((cfg0.win 0).blk t).view.emb (ix2 p q)) = V c main_v18 _
  congr 1
  funext a
  apply Fin.ext
  match a with
  | ⟨0, _⟩ => show win0_0.index t (0 : Fin 2) * 6000 + 1 * p.val = t.val * 6000 + p.val; rw [e0]; omega
  | ⟨1, _⟩ => show win0_0.index t (1 : Fin 2) * 100 + 1 * q.val = q.val; rw [e1]; omega

/-- The block of the targets' own features at point t is rows 6000·t … 6000·t + 5999 of their array. -/
theorem self_block_rows (c : Dev nD) (t : Fin cfg0.N) :
    IsRows t.val (block_rows_le t) (iblk0 V c 1 t : Vec Ideal S6000x100 .f32) (V c main_v19 : S60000x100.Idx → EReal) := by
  intro p q
  obtain ⟨-, -, e0, e1, -⟩ := index_maps t
  unfold iblk0
  rw [View.read_apply]
  show V c main_v19 (((cfg0.win 1).blk t).view.emb (ix2 p q)) = V c main_v19 _
  congr 1
  funext a
  apply Fin.ext
  match a with
  | ⟨0, _⟩ => show win0_1.index t (0 : Fin 2) * 6000 + 1 * p.val = t.val * 6000 + p.val; rw [e0]; omega
  | ⟨1, _⟩ => show win0_1.index t (1 : Fin 2) * 100 + 1 * q.val = q.val; rw [e1]; omega

/-- Every point reads the whole left weight matrix. -/
theorem wl_block_whole (c : Dev nD) (t : Fin cfg0.N) :
    (iblk0 V c 2 t : Vec Ideal S100x256 .f32) = (V c main_arg7 : S100x256.Idx → EReal) := by
  funext y
  obtain ⟨-, -, -, -, e0, e1, -⟩ := index_maps t
  unfold iblk0
  rw [View.read_apply]
  show V c main_arg7 (((cfg0.win 2).blk t).view.emb y) = V c main_arg7 y
  congr 1
  funext a
  apply Fin.ext
  match a with
  | ⟨0, _⟩ => show win0_2.index t (0 : Fin 2) * 100 + 1 * (y 0).val = (y 0).val; rw [e0]; omega
  | ⟨1, _⟩ => show win0_2.index t (1 : Fin 2) * 256 + 1 * (y 1).val = (y 1).val; rw [e1]; omega

/-- Every point reads the whole right weight matrix. -/
theorem wr_block_whole (c : Dev nD) (t : Fin cfg0.N) :
    (iblk0 V c 3 t : Vec Ideal S100x256 .f32) = (V c main_arg8 : S100x256.Idx → EReal) := by
  funext y
  obtain ⟨-, -, -, -, -, -, e0, e1, -⟩ := index_maps t
  unfold iblk0
  rw [View.read_apply]
  show V c main_arg8 (((cfg0.win 3).blk t).view.emb y) = V c main_arg8 y
  congr 1
  funext a
  apply Fin.ext
  match a with
  | ⟨0, _⟩ => show win0_3.index t (0 : Fin 2) * 100 + 1 * (y 0).val = (y 0).val; rw [e0]; omega
  | ⟨1, _⟩ => show win0_3.index t (1 : Fin 2) * 256 + 1 * (y 1).val = (y 1).val; rw [e1]; omega

/-- Every point reads the whole bias vector. -/
theorem bias_block_whole (c : Dev nD) (t : Fin cfg0.N) :
    (iblk0 V c 4 t : Vec Ideal S256 .f32) = (V c main_arg9 : S256.Idx → EReal) := by
  funext y
  obtain ⟨-, -, -, -, -, -, -, -, e0, -⟩ := index_maps t
  unfold iblk0
  rw [View.read_apply]
  show V c main_arg9 (((cfg0.win 4).blk t).view.emb y) = V c main_arg9 y
  congr 1
  funext a
  apply Fin.ext
  match a with
  | ⟨0, _⟩ => show win0_4.index t (0 : Fin 1) * 256 + 1 * (y 0).val = (y 0).val; rw [e0]; omega

/-! ## The body's arithmetic on a block of rows -/

/-- The body's arithmetic on 6000 rows of the two inputs gives the same 6000 rows of the dense layer of the whole
    inputs: every operation of the layer works on each row by itself. -/
theorem payload_rows {t : ℕ} {h : t * 6000 + 6000 ≤ 60000}
    (x0 x1 : Vec Ideal S6000x100 .f32) (wl wr : Vec Ideal S100x256 .f32) (b : Vec Ideal S256 .f32)
    (m xt : S60000x100.Idx → EReal) (h0 : IsRows t h x0 m) (h1 : IsRows t h x1 xt) :
    IsRows t h (k0_pay1 x0 x1 wl wr b) (Cert.Sage.dense0 (F := Ideal) m xt wl wr b) := by
  unfold k0_pay1 Cert.Sage.dense0
  exact Cert.Sage.Rows.sageRelu_rows wl wr b h0 h1 _ _ _ _ _ _ _

/-! ## From the blocks to the array -/

/-- What point t writes back is block t of the dense layer of the arrays the region's input windows read. -/
theorem flushed_eq (c : Dev nD) (t : Fin cfg0.N) :
    (dat0 (F := Ideal) V c).flushed 5 t
      = ((cfg0.win 5).blk t).view.read (Elt Ideal)
          (Cert.Sage.dense0 (F := Ideal) (V c main_v18) (V c main_v19) (V c main_arg7) (V c main_arg8) (V c main_arg9)) := by
  show (cfg0.win 5).cut (grid0.coords t) ((dat0 V c).after 5 t) = _
  rw [after0_5]
  unfold out0_5
  rw [View.canon_unit_zero zero2]
  simp only [View.ld_unit_zero (S := S6000x100) zero2, View.ld_unit_zero (S := S100x256) zero2,
    View.ld_unit_zero (S := S256) zero1]
  have hrows := payload_rows (iblk0 V c 0 t) (iblk0 V c 1 t) (iblk0 V c 2 t) (iblk0 V c 3 t) (iblk0 V c 4 t)
    (V c main_v18) (V c main_v19) (mean_block_rows V c t) (self_block_rows V c t)
  rw [wl_block_whole V c t, wr_block_whole V c t, bias_block_whole V c t] at hrows
  rw [wl_block_whole V c t, wr_block_whole V c t, bias_block_whole V c t]
  obtain ⟨-, -, -, -, -, -, -, -, -, e0, e1⟩ := index_maps t
  funext j
  obtain ⟨p, q, rfl⟩ : ∃ (p : Fin 6000) (q : Fin 256), j = ix2 p q := ⟨j 0, j 1, eq_ix2 j⟩
  refine (hrows p q).trans ?_
  rw [View.read_apply]
  congr 1
  funext a
  apply Fin.ext
  match a with
  | ⟨0, _⟩ => show t.val * 6000 + p.val = win0_5.index t (0 : Fin 2) * 6000 + 1 * p.val; rw [e0]; omega
  | ⟨1, _⟩ => show q.val = win0_5.index t (1 : Fin 2) * 256 + 1 * q.val; rw [e1]; omega

/-- An index of the output array is in point t's block iff each coordinate is in the block's range on its axis. -/
theorem mem_block_iff (t : Fin cfg0.N) (i : S60000x256.Idx) :
    i ∈ ((cfg0.win 5).blk t).view.set ↔ ∀ a : Fin 2, win0_5.index t a * S6000x256.size a ≤ (i a).val ∧ (i a).val < win0_5.index t a * S6000x256.size a + S6000x256.size a := by
  show i ∈ ((View.whole main_v20).slice (win0_5.rect t)).set ↔ _
  rw [View.set_slice_whole, Rect.mem_set_unit]
  exact Iff.rfl

/-- Row r of the output is written by point r / 6000. -/
theorem covered (i : S60000x256.Idx) :
    ∃ t : Fin cfg0.N, (cfg0.win 5).flush t = true ∧ i ∈ ((cfg0.win 5).blk t).view.set := by
  have hi0 : (i 0).val < 60000 := (i 0).isLt
  have hi1 : (i 1).val < 256 := (i 1).isLt
  have hN : cfg0.N = 10 := N_0
  let t : Fin cfg0.N := ⟨(i 0).val / 6000, by omega⟩
  obtain ⟨-, -, -, -, -, -, -, -, -, e0, e1⟩ := index_maps t
  have ht : t.val = (i 0).val / 6000 := rfl
  refine ⟨t, flush0_5 t, ?_⟩
  rw [mem_block_iff]
  intro a
  match a with
  | ⟨0, _⟩ => show win0_5.index t (0 : Fin 2) * 6000 ≤ (i 0).val ∧ (i 0).val < win0_5.index t (0 : Fin 2) * 6000 + 6000; rw [e0, ht]; omega
  | ⟨1, _⟩ => show win0_5.index t (1 : Fin 2) * 256 ≤ (i 1).val ∧ (i 1).val < win0_5.index t (1 : Fin 2) * 256 + 256; rw [e1]; omega

/-- The output array after the region is the dense layer of the arrays the region's input windows read. -/
theorem final (c : Dev nD) :
    (dat0 (F := Ideal) V c).arrAt 5 cfg0.N
      = Cert.Sage.dense0 (F := Ideal) (V c main_v18) (V c main_v19) (V c main_arg7) (V c main_arg8) (V c main_arg9) :=
  (dat0 (F := Ideal) V c).arrAt_eq_of_cover 5 _ (fun t _ => flushed_eq V c t) covered

end Cert.Sage.Region0

end
-- ==== Proof.Region1.lean ====
/-
  Layer 1's dense kernel, block by block. The kernel goes through the 6000 target rows 2000 at a time, in 3 grid
  points: at point t it reads rows 2000·t … 2000·t + 1999 of the neighbourhood means and of the targets' own features,
  the whole of both weight matrices and the whole bias, computes max(mean · Wl + self · Wr + b, 0) on those rows and
  writes the result to the same rows of the output. Every operation of the layer works on each row by itself, so what
  point t writes is rows 2000·t … 2000·t + 1999 of the layer applied to the whole arrays; row r of the output is written by
  point r / 2000, so the 3 blocks cover the output, and the output array after the region is the layer of the arrays the
  region's input windows read.
-/
import proofs.«127017_j11390253269762_1_alg».proof.Proof.Gen.KernelIdeal.Frame
import proofs.«127017_j11390253269762_1_alg».proof.Proof.Spec
import proofs.«127017_j11390253269762_1_alg».proof.Proof.LibRowBlock
import proofs.«127017_j11390253269762_1_alg».proof.Proof.LibSageRows
import Idealize.ShloMosaic.Lib.Pipeline.Value

noncomputable section

namespace Cert.Sage.Region1

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowBlock

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## Where each window's block sits -/

/-- The index maps over the grid: the two row-tiled inputs and the output are at block t of their arrays, the weights
    and the bias at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Block t of 2000 rows lies inside the 6000 rows. -/
theorem block_rows_le (t : Fin cfg1.N) : t.val * 2000 + 2000 ≤ 6000 := by
  have := t.isLt; have hN : cfg1.N = 3 := N_1; omega

/-- The block of the neighbourhood means at point t is rows 2000·t … 2000·t + 1999 of their array. -/
theorem mean_block_rows (c : Dev nD) (t : Fin cfg1.N) :
    IsRows t.val (block_rows_le t) (iblk1 V c 0 t : Vec Ideal S2000x256 .f32) (V c main_v39 : S6000x256.Idx → EReal) := by
  intro p q
  obtain ⟨e0, e1, -⟩ := index_maps t
  unfold iblk1
  rw [View.read_apply]
  show V c main_v39 (((cfg1.win 0).blk t).view.emb (ix2 p q)) = V c main_v39 _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 256 + 1 * q.val = q.val; rw [e1]; omega

/-- The block of the targets' own features at point t is rows 2000·t … 2000·t + 1999 of their array. -/
theorem self_block_rows (c : Dev nD) (t : Fin cfg1.N) :
    IsRows t.val (block_rows_le t) (iblk1 V c 1 t : Vec Ideal S2000x256 .f32) (V c main_v40 : S6000x256.Idx → EReal) := by
  intro p q
  obtain ⟨-, -, e0, e1, -⟩ := index_maps t
  unfold iblk1
  rw [View.read_apply]
  show V c main_v40 (((cfg1.win 1).blk t).view.emb (ix2 p q)) = V c main_v40 _
  congr 1
  funext a
  apply Fin.ext
  match a with
  | ⟨0, _⟩ => show win1_1.index t (0 : Fin 2) * 2000 + 1 * p.val = t.val * 2000 + p.val; rw [e0]; omega
  | ⟨1, _⟩ => show win1_1.index t (1 : Fin 2) * 256 + 1 * q.val = q.val; rw [e1]; omega

/-- Every point reads the whole left weight matrix. -/
theorem wl_block_whole (c : Dev nD) (t : Fin cfg1.N) :
    (iblk1 V c 2 t : Vec Ideal S256x256 .f32) = (V c main_arg10 : S256x256.Idx → EReal) := by
  funext y
  obtain ⟨-, -, -, -, e0, e1, -⟩ := index_maps t
  unfold iblk1
  rw [View.read_apply]
  show V c main_arg10 (((cfg1.win 2).blk t).view.emb y) = V c main_arg10 y
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- Every point reads the whole right weight matrix. -/
theorem wr_block_whole (c : Dev nD) (t : Fin cfg1.N) :
    (iblk1 V c 3 t : Vec Ideal S256x256 .f32) = (V c main_arg11 : S256x256.Idx → EReal) := by
  funext y
  obtain ⟨-, -, -, -, -, -, e0, e1, -⟩ := index_maps t
  unfold iblk1
  rw [View.read_apply]
  show V c main_arg11 (((cfg1.win 3).blk t).view.emb y) = V c main_arg11 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- Every point reads the whole bias vector. -/
theorem bias_block_whole (c : Dev nD) (t : Fin cfg1.N) :
    (iblk1 V c 4 t : Vec Ideal S256 .f32) = (V c main_arg12 : S256.Idx → EReal) := by
  funext y
  obtain ⟨-, -, -, -, -, -, -, -, e0, -⟩ := index_maps t
  unfold iblk1
  rw [View.read_apply]
  show V c main_arg12 (((cfg1.win 4).blk t).view.emb y) = V c main_arg12 y
  congr 1
  funext a
  apply Fin.ext
  match a with
  | ⟨0, _⟩ => show win1_4.index t (0 : Fin 1) * 256 + 1 * (y 0).val = (y 0).val; rw [e0]; omega

/-! ## The body's arithmetic on a block of rows -/

/-- The body's arithmetic on 2000 rows of the two inputs gives the same 2000 rows of the dense layer of the whole
    inputs: every operation of the layer works on each row by itself. -/
theorem payload_rows {t : ℕ} {h : t * 2000 + 2000 ≤ 6000}
    (x0 x1 : Vec Ideal S2000x256 .f32) (wl wr : Vec Ideal S256x256 .f32) (b : Vec Ideal S256 .f32)
    (m xt : S6000x256.Idx → EReal) (h0 : IsRows t h x0 m) (h1 : IsRows t h x1 xt) :
    IsRows t h (k1_pay1 x0 x1 wl wr b) (Cert.Sage.dense1 (F := Ideal) m xt wl wr b) := by
  unfold k1_pay1 Cert.Sage.dense1
  exact Cert.Sage.Rows.sageRelu_rows wl wr b h0 h1 _ _ _ _ _ _ _

/-! ## From the blocks to the array -/

/-- What point t writes back is block t of the dense layer of the arrays the region's input windows read. -/
theorem flushed_eq (c : Dev nD) (t : Fin cfg1.N) :
    (dat1 (F := Ideal) V c).flushed 5 t
      = ((cfg1.win 5).blk t).view.read (Elt Ideal)
          (Cert.Sage.dense1 (F := Ideal) (V c main_v39) (V c main_v40) (V c main_arg10) (V c main_arg11) (V c main_arg12)) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256x256) zero2,
    View.ld_unit_zero (S := S256) zero1]
  have hrows := payload_rows (iblk1 V c 0 t) (iblk1 V c 1 t) (iblk1 V c 2 t) (iblk1 V c 3 t) (iblk1 V c 4 t)
    (V c main_v39) (V c main_v40) (mean_block_rows V c t) (self_block_rows V c t)
  rw [wl_block_whole V c t, wr_block_whole V c t, bias_block_whole V c t] at hrows
  rw [wl_block_whole V c t, wr_block_whole V c t, bias_block_whole V c t]
  obtain ⟨-, -, -, -, -, -, -, -, -, e0, e1⟩ := index_maps t
  funext j
  obtain ⟨p, q, rfl⟩ : ∃ (p : Fin 2000) (q : Fin 256), j = ix2 p q := ⟨j 0, j 1, eq_ix2 j⟩
  refine (hrows p q).trans ?_
  rw [View.read_apply]
  congr 1
  funext a
  apply Fin.ext
  match a with
  | ⟨0, _⟩ => show t.val * 2000 + p.val = win1_5.index t (0 : Fin 2) * 2000 + 1 * p.val; rw [e0]; omega
  | ⟨1, _⟩ => show q.val = win1_5.index t (1 : Fin 2) * 256 + 1 * q.val; rw [e1]; omega

/-- An index of the output array is in point t's block iff each coordinate is in the block's range on its axis. -/
theorem mem_block_iff (t : Fin cfg1.N) (i : S6000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- Row r of the output is written by point r / 2000. -/
theorem covered (i : S6000x256.Idx) :
    ∃ t : Fin cfg1.N, (cfg1.win 5).flush t = true ∧ i ∈ ((cfg1.win 5).blk t).view.set := by
  have hi0 : (i 0).val < 6000 := (i 0).isLt
  have hi1 : (i 1).val < 256 := (i 1).isLt
  have hN : cfg1.N = 3 := N_1
  let t : Fin cfg1.N := ⟨(i 0).val / 2000, by omega⟩
  obtain ⟨-, -, -, -, -, -, -, -, -, e0, e1⟩ := index_maps t
  have ht : t.val = (i 0).val / 2000 := rfl
  refine ⟨t, flush1_5 t, ?_⟩
  rw [mem_block_iff]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- The output array after the region is the dense layer of the arrays the region's input windows read. -/
theorem final (c : Dev nD) :
    (dat1 (F := Ideal) V c).arrAt 5 cfg1.N
      = Cert.Sage.dense1 (F := Ideal) (V c main_v39) (V c main_v40) (V c main_arg10) (V c main_arg11) (V c main_arg12) :=
  (dat1 (F := Ideal) V c).arrAt_eq_of_cover 5 _ (fun t _ => flushed_eq V c t) covered

end Cert.Sage.Region1

end
-- ==== Proof.Region2.lean ====
/-
  The last kernel of the network: one grid point, whose blocks are the whole arrays. From the neighbourhood mean m and
  the targets' own features x (both [1024, 256]), the weights Wl, Wr ([256, 47]) and the bias b ([47]) it computes
      v = m · Wl + x · Wr + b        (no rectifier on the last layer)
  and then, row by row, the logarithm of the softmax:  s − log Σ_k exp s(·, k)  with  s = v − max_k v(·, k).
  This file shows that the array the kernel leaves behind is the specification's  logSoftmax (dense2 m x Wl Wr b)  of
  the arrays the region finds on entry:
    * the body's arithmetic is that function of its five loaded blocks (all 1024 rows of a 1024-row array are the
      array, so the row-block lemmas for the affine layer and for the log-softmax apply with one block of 1024 rows);
    * at the one grid point every window's block index is zero on every axis and the block has the array's extents,
      so each input block is its whole array and the block written back is the whole result;
    * that one block covers every index of the result array.
-/
import proofs.«127017_j11390253269762_1_alg».proof.Proof.Gen.KernelIdeal.Frame
import proofs.«127017_j11390253269762_1_alg».proof.Proof.Spec
import proofs.«127017_j11390253269762_1_alg».proof.Proof.LibRowBlock
import proofs.«127017_j11390253269762_1_alg».proof.Proof.LibGroupSum
import proofs.«127017_j11390253269762_1_alg».proof.Proof.LibRowExtrema
import proofs.«127017_j11390253269762_1_alg».proof.Proof.LibColRow
import proofs.«127017_j11390253269762_1_alg».proof.Proof.LibSageRows
import Idealize.ShloMosaic.Lib.Pipeline.Value

noncomputable section

namespace Cert.Sage.Region2

open Cert.KernelIdeal Cert.KernelIdeal.Gen Idealize.ShloMosaic Idealize.ShloMosaic.TcCoe Idealize.SL.Sem
open Idealize.ShloMosaic.ValueIdx Idealize.ShloMosaic.RowBlock
open Idealize.ShloMosaic.Pipeline (Dat)

/-! ## The body's arithmetic -/

/-- All 1024 rows of a 1024-row array are the array itself: row p of block 0 is row 0 · 1024 + p = p. -/
theorem isRows_all {n : ℕ} (h : 0 * 1024 + 1024 ≤ 1024) (x : (⟨2, ![1024, n]⟩ : Shape).Idx → EReal) :
    IsRows 0 h x x :=
  fun p q => congrArg (fun r => x (ix2 r q)) (Fin.ext (by show p.val = 0 * 1024 + p.val; omega))

set_option maxHeartbeats 400000 in
/-- The value the body stores is the log-softmax of the affine layer of its five loaded blocks. With one block of
    1024 rows, "the block's rows of the result" is the whole result: the affine layer's rows are the affine layer of
    the rows, the log-softmax's rows are the log-softmax of the rows, and entry (p, q) of the block is entry
    (0 · 1024 + p, q) = (p, q) of the array. -/
theorem payload_eq (x0 x1 : Vec Ideal S1024x256 .f32) (x2 x3 : Vec Ideal S256x47 .f32) (x4 : Vec Ideal S47 .f32) :
    k2_pay1 (F := Ideal) x0 x1 x2 x3 x4
      = Cert.Sage.logSoftmax (F := Ideal) (Cert.Sage.dense2 (F := Ideal) x0 x1 x2 x3 x4) := by
  have h : 0 * 1024 + 1024 ≤ 1024 := by decide
  have hd := Cert.Sage.Rows.sageAffine_rows (R := 1024) (B := 1024) (K := 256) (N := 47) (t := 0) (h := h) x2 x3 x4
    (isRows_all h x0) (isRows_all h x1)
    shapeCasts_S1024x256_S1024x256 bitsLt_bf16_f32 shapeCasts_S47_S1x47 broadcasts_S1x47_S1024x47
    Cert.ReferenceIdeal.Gen.bcast_S47_S1x47_1 Cert.ReferenceIdeal.Gen.bcast_S1x47_S1024x47_0_1
  have hl := Cert.Sage.Rows.logSoftmax_rows hd reduces_S1024x47_S1024 (.inl rfl) rfl rfl shapeCasts_S1024_S1024x1
    broadcasts_S1024x1_S1024x47
    Cert.ReferenceIdeal.Gen.reducesTo_S1024x47_S1024_d1 Cert.ReferenceIdeal.Gen.h_S_ Cert.ReferenceIdeal.Gen.bcast_S_S1024
    Cert.ReferenceIdeal.Gen.bcast_S1024_S1024x1_0 Cert.ReferenceIdeal.Gen.bcast_S1024x1_S1024x47_0_1
  funext j
  obtain ⟨p, q, rfl⟩ : ∃ (p : Fin 1024) (q : Fin 47), j = ix2 p q := ⟨j 0, j 1, eq_ix2 j⟩
  refine (hl p q).trans ?_
  exact congrArg
    (fun r => Cert.Sage.logSoftmax (F := Ideal) (Cert.Sage.dense2 (F := Ideal) x0 x1 x2 x3 x4) (ix2 r q))
    (Fin.ext (by show 0 * 1024 + p.val = p.val; omega))

/-! ## The blocks at the one grid point -/

section Blocks

-- the buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The grid has one point; there the block index of window 0 is zero on both axes and the block has the array's
    extents, so the block of the neighbourhood means is the whole array. -/
theorem block0 (c : Dev nD) (t : Fin cfg2.N) : (iblk2 V c 0 t : Vec Ideal S1024x256 .f32) = V c main_v60 := by
  obtain rfl : t = t2_0 := fin_N2 t
  have hz : (fun a => win2_0.index t2_0 a * main_v60.ty.shape.size a) = fun _ => 0 :=
    funext fun a => by fin_cases a <;> decide
  exact Memref.read_access_unit_zero (Elt Ideal) main_v60 hz (fun a => by rw [congrFun hz a]; simp) (V c main_v60)

/-- The block of the targets' own features is the whole array. -/
theorem block1 (c : Dev nD) (t : Fin cfg2.N) : (iblk2 V c 1 t : Vec Ideal S1024x256 .f32) = V c main_v61 := by
  obtain rfl : t = t2_0 := fin_N2 t
  have hz : (fun a => win2_1.index t2_0 a * main_v61.ty.shape.size a) = fun _ => 0 :=
    funext fun a => by fin_cases a <;> decide
  exact Memref.read_access_unit_zero (Elt Ideal) main_v61 hz (fun a => by rw [congrFun hz a]; simp) (V c main_v61)

/-- The block of the weights applied to the means is the whole matrix. -/
theorem block2 (c : Dev nD) (t : Fin cfg2.N) : (iblk2 V c 2 t : Vec Ideal S256x47 .f32) = V c main_arg13 := by
  obtain rfl : t = t2_0 := fin_N2 t
  have hz : (fun a => win2_2.index t2_0 a * main_arg13.ty.shape.size a) = fun _ => 0 :=
    funext fun a => by fin_cases a <;> decide
  exact Memref.read_access_unit_zero (Elt Ideal) main_arg13 hz (fun a => by rw [congrFun hz a]; simp) (V c main_arg13)

/-- The block of the weights applied to the targets' own features is the whole matrix. -/
theorem block3 (c : Dev nD) (t : Fin cfg2.N) : (iblk2 V c 3 t : Vec Ideal S256x47 .f32) = V c main_arg14 := by
  obtain rfl : t = t2_0 := fin_N2 t
  have hz : (fun a => win2_3.index t2_0 a * main_arg14.ty.shape.size a) = fun _ => 0 :=
    funext fun a => by fin_cases a <;> decide
  exact Memref.read_access_unit_zero (Elt Ideal) main_arg14 hz (fun a => by rw [congrFun hz a]; simp) (V c main_arg14)

/-- The block of the bias is the whole vector. -/
theorem block4 (c : Dev nD) (t : Fin cfg2.N) : (iblk2 V c 4 t : Vec Ideal S47 .f32) = V c main_arg15 := by
  obtain rfl : t = t2_0 := fin_N2 t
  have hz : (fun a => win2_4.index t2_0 a * main_arg15.ty.shape.size a) = fun _ => 0 :=
    funext fun a => by fin_cases a <;> decide
  exact Memref.read_access_unit_zero (Elt Ideal) main_arg15 hz (fun a => by rw [congrFun hz a]; simp) (V c main_arg15)

/-- What the one grid point writes back is the block, at that point, of the log-softmax of the affine layer of the
    arrays the region finds: the body's single store through the whole-buffer rectangle leaves its value, its loads
    through whole-buffer rectangles read the blocks, the blocks are the arrays, and the output's block at zero block
    indices with the array's extents reads the whole array. -/
theorem flushed_eq (c : Dev nD) (t : Fin cfg2.N) :
    (dat2 (F := Ideal) V c).flushed 5 t
      = ((cfg2.win 5).blk t).view.read (Elt Ideal)
          (Cert.Sage.logSoftmax (F := Ideal) (Cert.Sage.dense2 (F := Ideal) (V c main_v60) (V c main_v61) (V c main_arg13) (V c main_arg14) (V c main_arg15))) := by
  show (cfg2.win 5).cut (grid2.coords t) ((dat2 (F := Ideal) V c).after 5 t) = _
  rw [after2_5]
  unfold out2_5
  rw [View.canon_unit_zero zeros2]
  simp only [View.ld_unit_zero (S := S1024x256) zeros2, View.ld_unit_zero (S := S256x47) zeros2,
    View.ld_unit_zero (S := S47) zeros1]
  rw [block0 V c t, block1 V c t, block2 V c t, block3 V c t, block4 V c t, payload_eq]
  obtain rfl : t = t2_0 := fin_N2 t
  have hz : (fun a => win2_5.index t2_0 a * main_v62.ty.shape.size a) = fun _ => 0 :=
    funext fun a => by fin_cases a <;> decide
  exact (Memref.read_access_unit_zero (Elt Ideal) main_v62 hz (fun a => by rw [congrFun hz a]; simp) _).symm

/-- The result array after the region: the one point's block starts at zero on both axes with the array's extents,
    so it contains every index, and the array ends holding the log-softmax of the affine layer of the arrays the
    region finds on entry. -/
theorem final (c : Dev nD) :
    (dat2 (F := Ideal) V c).arrAt 5 cfg2.N
      = Cert.Sage.logSoftmax (F := Ideal) (Cert.Sage.dense2 (F := Ideal) (V c main_v60) (V c main_v61) (V c main_arg13) (V c main_arg14) (V c main_arg15)) :=
  (dat2 (F := Ideal) V c).arrAt_eq_of_cover 5 _ (fun t _ => flushed_eq V c t) fun i =>
    ⟨t2_0, flush2_5 t2_0, by
      show i ∈ ((View.whole main_v62).slice (win2_5.rect t2_0)).set
      rw [View.set_slice_whole]
      have hz : (fun a => win2_5.index t2_0 a * main_v62.ty.shape.size a) = fun _ => 0 :=
        funext fun a => by fin_cases a <;> decide
      exact View.mem_set_unit_zero hz _ i⟩

end Blocks

end Cert.Sage.Region2

end
-- ==== Proof.KGlue.lean ====
/-
  What the kernel program's host operations compute between its three dense kernels, as functions of the arrays they
  read: per layer the neighbourhood mean (the same gather and scatter-add as the specification's; the edge count is
  accumulated as a VECTOR of length n_tgt and only then made a column, where the specification accumulates a column)
  and the slice of the targets' own rows.
-/
import proofs.«127017_j11390253269762_1_alg».proof.Proof.Gen.KernelIdeal

noncomputable section

namespace Cert.Sage.K

open Cert.KernelIdeal Cert.KernelIdeal.Gen Idealize.ShloMosaic

variable {F : FTy → Type} [FloatOps F]

/-- Layer 0's neighbourhood mean as the kernel program's host operations spell it. -/
def kmean0 (x : (⟨S900000x100, .f32⟩ : BufTy).Contents (Elt F)) (src dst : (⟨S900000, .i32⟩ : BufTy).Contents (Elt F)) : (⟨S60000x100, .f32⟩ : BufTy).Contents (Elt F) :=
  (Host.divf (Host.scatterAdd scatter_S60000x100_S900000x1_S900000x100_1_0_0_1 (broadcastInDim S60000x100 ![] bcast_S_S60000x100 (constant S_ .f32 0x00000000#32)) (broadcastInDim S900000x1 ![0] bcast_S900000_S900000x1_0 dst) (Host.gather gather_S900000x100_S900000x1_S900000x100_1_0_n_n_0_1_1100 x (broadcastInDim S900000x1 ![0] bcast_S900000_S900000x1_0 (select (cmpi .slt src (broadcastInDim S900000 ![] bcast_S_S900000 (constantI S_ 32 0#32))) (addi src (broadcastInDim S900000 ![] bcast_S_S900000 (constantI S_ 32 900000#32))) src)))) (broadcastInDim S60000x100 ![0, 1] bcast_S60000x1_S60000x100_0_1 (broadcastInDim S60000x1 ![0] bcast_S60000_S60000x1_0 (maximumf (Host.scatterAdd scatter_S60000_S900000x1_S900000_n_0_0_1 (broadcastInDim S60000 ![] bcast_S_S60000 (constant S_ .f32 0x00000000#32)) (broadcastInDim S900000x1 ![0] bcast_S900000_S900000x1_0 dst) (broadcastInDim S900000 ![] bcast_S_S900000 (constant S_ .f32 0x3F800000#32))) (broadcastInDim S60000 ![] bcast_S_S60000 (constant S_ .f32 0x3F800000#32))))))

/-- The first 60000 rows. -/
def kself0 (x : (⟨S900000x100, .f32⟩ : BufTy).Contents (Elt F)) : (⟨S60000x100, .f32⟩ : BufTy).Contents (Elt F) :=
  (extractStridedSlice S60000x100 ![0, 0] x slices_S900000x100_S60000x100_0_0)

/-- Layer 1's neighbourhood mean as the kernel program's host operations spell it. -/
def kmean1 (hprev : (⟨S60000x256, .f32⟩ : BufTy).Contents (Elt F)) (src dst : (⟨S60000, .i32⟩ : BufTy).Contents (Elt F)) : (⟨S6000x256, .f32⟩ : BufTy).Contents (Elt F) :=
  (Host.divf (Host.scatterAdd scatter_S6000x256_S60000x1_S60000x256_1_0_0_1 (broadcastInDim S6000x256 ![] bcast_S_S6000x256 (constant S_ .f32 0x00000000#32)) (broadcastInDim S60000x1 ![0] bcast_S60000_S60000x1_0 dst) (Host.gather gather_S60000x256_S60000x1_S60000x256_1_0_n_n_0_1_1256 hprev (broadcastInDim S60000x1 ![0] bcast_S60000_S60000x1_0 (select (cmpi .slt src (broadcastInDim S60000 ![] bcast_S_S60000 (constantI S_ 32 0#32))) (addi src (broadcastInDim S60000 ![] bcast_S_S60000 (constantI S_ 32 60000#32))) src)))) (broadcastInDim S6000x256 ![0, 1] bcast_S6000x1_S6000x256_0_1 (broadcastInDim S6000x1 ![0] bcast_S6000_S6000x1_0 (maximumf (Host.scatterAdd scatter_S6000_S60000x1_S60000_n_0_0_1 (broadcastInDim S6000 ![] bcast_S_S6000 (constant S_ .f32 0x00000000#32)) (broadcastInDim S60000x1 ![0] bcast_S60000_S60000x1_0 dst) (broadcastInDim S60000 ![] bcast_S_S60000 (constant S_ .f32 0x3F800000#32))) (broadcastInDim S6000 ![] bcast_S_S6000 (constant S_ .f32 0x3F800000#32))))))

/-- The first 6000 rows. -/
def kself1 (hprev : (⟨S60000x256, .f32⟩ : BufTy).Contents (Elt F)) : (⟨S6000x256, .f32⟩ : BufTy).Contents (Elt F) :=
  (extractStridedSlice S6000x256 ![0, 0] hprev slices_S60000x256_S6000x256_0_0)

/-- Layer 2's neighbourhood mean as the kernel program's host operations spell it. -/
def kmean2 (hprev : (⟨S6000x256, .f32⟩ : BufTy).Contents (Elt F)) (src dst : (⟨S5120, .i32⟩ : BufTy).Contents (Elt F)) : (⟨S1024x256, .f32⟩ : BufTy).Contents (Elt F) :=
  (Host.divf (Host.scatterAdd scatter_S1024x256_S5120x1_S5120x256_1_0_0_1 (broadcastInDim S1024x256 ![] bcast_S_S1024x256 (constant S_ .f32 0x00000000#32)) (broadcastInDim S5120x1 ![0] bcast_S5120_S5120x1_0 dst) (Host.gather gather_S6000x256_S5120x1_S5120x256_1_0_n_n_0_1_1256 hprev (broadcastInDim S5120x1 ![0] bcast_S5120_S5120x1_0 (select (cmpi .slt src (broadcastInDim S5120 ![] bcast_S_S5120 (constantI S_ 32 0#32))) (addi src (broadcastInDim S5120 ![] bcast_S_S5120 (constantI S_ 32 6000#32))) src)))) (broadcastInDim S1024x256 ![0, 1] bcast_S1024x1_S1024x256_0_1 (broadcastInDim S1024x1 ![0] bcast_S1024_S1024x1_0 (maximumf (Host.scatterAdd scatter_S1024_S5120x1_S5120_n_0_0_1 (broadcastInDim S1024 ![] bcast_S_S1024 (constant S_ .f32 0x00000000#32)) (broadcastInDim S5120x1 ![0] bcast_S5120_S5120x1_0 dst) (broadcastInDim S5120 ![] bcast_S_S5120 (constant S_ .f32 0x3F800000#32))) (broadcastInDim S1024 ![] bcast_S_S1024 (constant S_ .f32 0x3F800000#32))))))

/-- The first 1024 rows. -/
def kself2 (hprev : (⟨S6000x256, .f32⟩ : BufTy).Contents (Elt F)) : (⟨S1024x256, .f32⟩ : BufTy).Contents (Elt F) :=
  (extractStridedSlice S1024x256 ![0, 0] hprev slices_S6000x256_S1024x256_0_0)

end Cert.Sage.K

end
-- ==== Proof.Stretch0.lean ====
/-
  The host operations before the first dense kernel. From the launch contents they leave, in the buffers the kernel's
  input windows read: the neighbourhood mean of layer 0 (gather of the source rows, scatter-add over the targets,
  division by the edge count clamped below by one) of the node features and the first edge list; the first 60000
  rows of the node features; and the three weight arrays of layer 0 untouched, since no operation writes them.
-/
import proofs.«127017_j11390253269762_1_alg».proof.Proof.Gen.KernelIdeal.Frame
import proofs.«127017_j11390253269762_1_alg».proof.Proof.KGlue

set_option maxRecDepth 16384

noncomputable section

namespace Cert.Sage.Stretch0

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The mean window reads layer 0's neighbourhood mean of the launch contents. -/
theorem mean_eq : V1 m ρ c main_v18 = Cert.Sage.K.kmean0 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- The self window reads the first 60000 rows of the node features. -/
theorem self_eq : V1 m ρ c main_v19 = Cert.Sage.K.kself0 (m ((c : Thread nD τ).loc main_arg0)) := by
  show StableHlo.after hostOps0 (W0 m ρ c) (Proc.devRef .tc main_v19) = _
  after_results_simp
  rfl

/-- The neighbour weights are as launched: no host operation writes them. -/
theorem wl_eq : V1 m ρ c main_arg7 = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg7) := rfl

/-- The self weights are as launched. -/
theorem wr_eq : V1 m ρ c main_arg8 = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg8) := rfl

/-- The bias is as launched. -/
theorem b_eq : V1 m ρ c main_arg9 = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg9) := rfl

end Cert.Sage.Stretch0

end
-- ==== Proof.Stretch1.lean ====
/-
  The host operations between the first and the second dense kernel. They start from the contents the first kernel
  leaves: its output array holds the first layer's activations, every other buffer what it held before the kernel.
  In the buffers the second kernel's input windows read they leave: the neighbourhood mean of layer 1 of those
  activations and the second edge list (which no earlier operation and no kernel has written, so it is as launched);
  the first 6000 rows of the activations; and the three weight arrays of layer 1 as launched.
-/
import proofs.«127017_j11390253269762_1_alg».proof.Proof.Gen.KernelIdeal.Frame
import proofs.«127017_j11390253269762_1_alg».proof.Proof.KGlue

set_option maxRecDepth 16384

noncomputable section

namespace Cert.Sage.Stretch1

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The second edge list's sources, when the stretch starts, are as launched: the first stretch and the first kernel write neither. -/
theorem src_eq : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg3) := rfl

/-- The second edge list's targets, when the stretch starts, are as launched. -/
theorem dst_eq : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg4) := rfl

/-- The mean window reads layer 1's neighbourhood mean of the first kernel's output. -/
theorem mean_eq : V3 m ρ c main_v39 = Cert.Sage.K.kmean1 (W2 m ρ c (Proc.devRef .tc main_v20)) (m ((c : Thread nD τ).loc main_arg3)) (m ((c : Thread nD τ).loc main_arg4)) := by
  show StableHlo.after hostOps1 (W2 m ρ c) (Proc.devRef .tc main_v39) = _
  after_results_simp
  rw [src_eq, dst_eq]
  rfl

/-- The self window reads the first 6000 rows of the first kernel's output. -/
theorem self_eq : V3 m ρ c main_v40 = Cert.Sage.K.kself1 (W2 m ρ c (Proc.devRef .tc main_v20)) := by
  show StableHlo.after hostOps1 (W2 m ρ c) (Proc.devRef .tc main_v40) = _
  after_results_simp
  rfl

/-- The neighbour weights of layer 1 are as launched: no host operation and no kernel writes them. -/
theorem wl_eq : V3 m ρ c main_arg10 = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg10) := rfl

/-- The self weights of layer 1 are as launched. -/
theorem wr_eq : V3 m ρ c main_arg11 = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg11) := rfl

/-- The bias of layer 1 is as launched. -/
theorem b_eq : V3 m ρ c main_arg12 = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg12) := rfl

end Cert.Sage.Stretch1

end
-- ==== Proof.Stretch2.lean ====
/-
  The host operations between the second and the third dense kernel. They start from the contents the second kernel
  leaves: its output array holds the second layer's activations, every other buffer what it held before the kernel.
  In the buffers the third kernel's input windows read they leave: the neighbourhood mean of layer 2 of those
  activations and the third edge list (as launched: nothing earlier writes it); the first 1024 rows of the
  activations; and the three weight arrays of layer 2 as launched.
-/
import proofs.«127017_j11390253269762_1_alg».proof.Proof.Gen.KernelIdeal.Frame
import proofs.«127017_j11390253269762_1_alg».proof.Proof.KGlue

set_option maxRecDepth 16384

noncomputable section

namespace Cert.Sage.Stretch2

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The third edge list's sources, when the stretch starts, are as launched: neither earlier stretch and neither earlier kernel writes them. -/
theorem src_eq : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg5) := rfl

/-- The third edge list's targets, when the stretch starts, are as launched. -/
theorem dst_eq : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg6) := rfl

/-- The mean window reads layer 2's neighbourhood mean of the second kernel's output. -/
theorem mean_eq : V5 m ρ c main_v60 = Cert.Sage.K.kmean2 (W4 m ρ c (Proc.devRef .tc main_v41)) (m ((c : Thread nD τ).loc main_arg5)) (m ((c : Thread nD τ).loc main_arg6)) := by
  show StableHlo.after hostOps2 (W4 m ρ c) (Proc.devRef .tc main_v60) = _
  after_results_simp
  rw [src_eq, dst_eq]
  rfl

/-- The self window reads the first 1024 rows of the second kernel's output. -/
theorem self_eq : V5 m ρ c main_v61 = Cert.Sage.K.kself2 (W4 m ρ c (Proc.devRef .tc main_v41)) := by
  show StableHlo.after hostOps2 (W4 m ρ c) (Proc.devRef .tc main_v61) = _
  after_results_simp
  rfl

/-- The neighbour weights of layer 2 are as launched: no host operation and no kernel writes them. -/
theorem wl_eq : V5 m ρ c main_arg13 = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.Forall, StableHlo.nullary_writes, StableHlo.unary_writes, StableHlo.binary_writes, StableHlo.ternary_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg13) := rfl

/-- The self weights of layer 2 are as launched. -/
theorem wr_eq : V5 m ρ c main_arg14 = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.Forall, StableHlo.nullary_writes, StableHlo.unary_writes, StableHlo.binary_writes, StableHlo.ternary_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg14) := rfl

/-- The bias of layer 2 is as launched. -/
theorem b_eq : V5 m ρ c main_arg15 = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps2, List.Forall, StableHlo.nullary_writes, StableHlo.unary_writes, StableHlo.binary_writes, StableHlo.ternary_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg15) := rfl

end Cert.Sage.Stretch2

end
-- ==== Proof.LibSegmentSum.lean ====
/-
  Segment sums read at an index.

  A float scatter with an `add` body whose scatter indices are one column of row numbers (what
  `jax.ops.segment_sum` lowers to) adds every update row to the operand row its index names, and
  drops a row whose index is outside the operand.  Read at the extended reals, the element at
  row `n`, column `c` of the result is the operand's element there plus the sum, over all update
  rows `e`, of the update's element `(e, c)` when row `e`'s index is `n` and of zero otherwise.
  The same holds for a rank-one operand (one number per row).
-/
import Idealize.ShloMosaic.PureOps.Ideal
import Idealize.ShloMosaic.PureOps.Ideal.Laws
import Idealize.ShloMosaic.Lib.ValueIdx

noncomputable section

namespace Cert.Lib.SegmentSum

open Idealize.ShloMosaic Idealize.ShloMosaic.ValueIdx

/-- The dimension numbers of a row scatter: operand `[N, C]`, one index per update row (`[E, 1]`), updates `[E, C]`;
    the update's second axis is the window, the operand's first axis is the scattered one. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- The index an update row reads its row number at: `(e, 0)`. -/
theorem rows_siIdx (j : (⟨2, ![E, C]⟩ : Shape).Idx) :
    (rowDims N E C wf).siIdx j ⟨List.idxOf (0 : Fin 2) (rowDims N E C wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem rows_start0 (j : (⟨2, ![E, C]⟩ : Shape).Idx) (idx : IVec ⟨2, ![E, 1]⟩ w) :
    (rowDims N E C wf).start j idx 0 = (idx (ix2 (j 0) ⟨0, Nat.one_pos⟩)).toInt := by
  unfold ScatterDims.start
  rw [dif_pos (show (0 : Fin 2) ∈ (rowDims N E C wf).scatterDimsToOperandDims from List.mem_singleton.mpr rfl)]
  rw [rows_siIdx]
  rfl

theorem rows_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => absurd (List.mem_singleton.mp h) (show ¬((1 : Fin 2) = 0) by decide))]

theorem rows_window0 (j : (⟨2, ![E, C]⟩ : Shape).Idx) : (rowDims N E C wf).window j 0 = 0 := rfl
theorem rows_window1 (j : (⟨2, ![E, C]⟩ : Shape).Idx) : (rowDims N E C wf).window j 1 = (j 1).val := rfl

/-- Where an update element lands: row `e`, column `b` lands on `(n, c)` exactly when row `e`'s index is `n` and `b = c`. -/
theorem rows_resultIdx?_eq_some_iff (j : (⟨2, ![E, C]⟩ : Shape).Idx) (idx : IVec ⟨2, ![E, 1]⟩ w)
    (i : (⟨2, ![N, C]⟩ : Shape).Idx) :
    (rowDims N E C wf).resultIdx? j idx = some i ↔
      (idx (ix2 (j 0) ⟨0, Nat.one_pos⟩)).toInt = ((i 0).val : Int) ∧ (j 1).val = (i 1).val := by
  have hs0 : (rowDims N E C wf).start j idx 0 + ((rowDims N E C wf).window j 0 : Int)
      = (idx (ix2 (j 0) ⟨0, Nat.one_pos⟩)).toInt := by
    rw [rows_start0, rows_window0]; simp
  have hs1 : (rowDims N E C wf).start j idx 1 + ((rowDims N E C wf).window j 1 : Int) = ((j 1).val : Int) := by
    rw [rows_start1, rows_window1]; simp
  have hi0 : (i 0).val < N := (i 0).isLt
  have hi1 : (i 1).val < C := (i 1).isLt
  unfold ScatterDims.resultIdx?
  split
  · rename_i h
    rw [Option.some.injEq]
    constructor
    · intro hf
      have h0 : ((rowDims N E C wf).start j idx 0 + ((rowDims N E C wf).window j 0 : Int)).toNat = (i 0).val :=
        congrArg (fun f : (⟨2, ![N, C]⟩ : Shape).Idx => (f 0).val) hf
      have h1 : ((rowDims N E C wf).start j idx 1 + ((rowDims N E C wf).window j 1 : Int)).toNat = (i 1).val :=
        congrArg (fun f : (⟨2, ![N, C]⟩ : Shape).Idx => (f 1).val) hf
      have g0 := (h 0).1
      rw [hs0] at h0 g0
      rw [hs1] at h1
      constructor
      · omega
      · omega
    · rintro ⟨h0, h1⟩
      funext a
      refine Fin.ext ?_
      match a with
      | ⟨0, _⟩ =>
        show ((rowDims N E C wf).start j idx 0 + ((rowDims N E C wf).window j 0 : Int)).toNat = (i 0).val
        rw [hs0, h0]; exact Int.toNat_natCast _
      | ⟨1, _⟩ =>
        show ((rowDims N E C wf).start j idx 1 + ((rowDims N E C wf).window j 1 : Int)).toNat = (i 1).val
        rw [hs1, h1]; exact Int.toNat_natCast _
  · rename_i h
    constructor
    · intro hf; exact absurd hf (by simp)
    · rintro ⟨h0, h1⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, h0]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, h1]; omega

/-- A row scatter with an `add` body, read at `(n, c)` on the extended reals: the operand there plus the sum over the
    update rows whose index is `n` of their column `c`. -/
theorem rows_scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e ⟨0, Nat.one_pos⟩)).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e ⟨0, Nat.one_pos⟩)).toInt = (n.val : Int)
  · have : ∀ b : Fin C, ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) ↔ b = c :=
      fun b => ⟨fun h => Fin.ext h.2, fun h => ⟨hA, by subst h; rfl⟩⟩
    simp only [this, if_pos hA]
    rw [Finset.sum_ite_eq' Finset.univ c fun b => upd (ix2 e b)]
    simp
  · have : ∀ b : Fin C, ¬ ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) :=
      fun b h => hA h.1
    simp only [this, if_neg hA, if_false, Finset.sum_const_zero]

end Rows

/-- The dimension numbers of a scatter of one number per row into a vector: operand `[N]`, one index per update (`[E, 1]`),
    updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A segment sum of rows into a constant array, the row numbers read off a vector `I` through a column `J` that holds them. -/
theorem rows_segment {N E C w : Nat} (wf : ScatterDims.WF ⟨2, ![N, C]⟩ ⟨2, ![E, 1]⟩ ⟨2, ![E, C]⟩ [1] [0] [0] 1) (z : EReal)
    (x : (⟨2, ![N, C]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨2, ![E, C]⟩ : Shape).Idx → EReal) (n : Fin N) (c : Fin C) :
    Ideal.hostScatterAdd (rowDims N E C wf) x J upd (ix2 n c)
      = z + ∑ e : Fin E, if (I (ix1 e)).toInt = (n.val : Int) then upd (ix2 e c) else 0 := by
  rw [rows_scatterAdd_apply, hx]
  refine congrArg (z + ·) (Finset.sum_congr rfl fun e _ => ?_)
  rw [hJ]

section Vec
variable {N E w : Nat} (wf : ScatterDims.WF ⟨1, ![N]⟩ ⟨2, ![E, 1]⟩ ⟨1, ![E]⟩ [] [0] [0] 1)

theorem vec_siIdx (j : (⟨1, ![E]⟩ : Shape).Idx) :
    (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem vec_start0 (j : (⟨1, ![E]⟩ : Shape).Idx) (idx : IVec ⟨2, ![E, 1]⟩ w) :
    (vecDims N E wf).start j idx 0 = (idx (ix2 (j 0) ⟨0, Nat.one_pos⟩)).toInt := by
  unfold ScatterDims.start
  rw [dif_pos (show (0 : Fin 1) ∈ (vecDims N E wf).scatterDimsToOperandDims from List.mem_singleton.mpr rfl)]
  rw [vec_siIdx]
  rfl

theorem vec_window0 (j : (⟨1, ![E]⟩ : Shape).Idx) : (vecDims N E wf).window j 0 = 0 := rfl

/-- Update `e` lands on `n` exactly when its index is `n`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) ⟨0, Nat.one_pos⟩)).toInt = ((i 0).val : Int) := by
  have hs0 : (vecDims N E wf).start j idx 0 + ((vecDims N E wf).window j 0 : Int)
      = (idx (ix2 (j 0) ⟨0, Nat.one_pos⟩)).toInt := by
    rw [vec_start0, vec_window0]; simp
  have hi0 : (i 0).val < N := (i 0).isLt
  unfold ScatterDims.resultIdx?
  split
  · rename_i h
    rw [Option.some.injEq]
    constructor
    · intro hf
      have h0 : ((vecDims N E wf).start j idx 0 + ((vecDims N E wf).window j 0 : Int)).toNat = (i 0).val :=
        congrArg (fun f : (⟨1, ![N]⟩ : Shape).Idx => (f 0).val) hf
      have g0 := (h 0).1
      rw [hs0] at h0 g0
      omega
    · intro h0
      funext a
      refine Fin.ext ?_
      match a with
      | ⟨0, _⟩ =>
        show ((vecDims N E wf).start j idx 0 + ((vecDims N E wf).window j 0 : Int)).toNat = (i 0).val
        rw [hs0, h0]; exact Int.toNat_natCast _
  · rename_i h
    constructor
    · intro hf; exact absurd hf (by simp)
    · intro h0
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, h0]; omega

/-- A rank-one index type is its one coordinate's. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Fintype.sum_equiv idxEquiv1.symm (fun a => f (ix1 a)) f (fun _ => rfl)).symm

/-- A scatter of one number per row with an `add` body, read at `n` on the extended reals: the operand there plus the
    sum of the updates whose index is `n`. -/
theorem vec_scatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e ⟨0, Nat.one_pos⟩)).toInt = (n.val : Int) then upd (ix1 e) else 0 := by
  unfold Ideal.hostScatterAdd
  congr 1
  rw [Finset.sum_filter, sum_idx1]
  refine Finset.sum_congr rfl fun e _ => ?_
  simp only [vec_resultIdx?_eq_some_iff]
  rfl

/-- A segment sum of numbers into a constant vector, the row numbers read off `I` through the column `J`. -/
theorem vec_segment (z : EReal) (x : (⟨1, ![N]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨1, ![E]⟩ : Shape).Idx → EReal) (n : Fin N) :
    Ideal.hostScatterAdd (vecDims N E wf) x J upd (ix1 n)
      = z + ∑ e : Fin E, if (I (ix1 e)).toInt = (n.val : Int) then upd (ix1 e) else 0 := by
  rw [vec_scatterAdd_apply, hx]
  refine congrArg (z + ·) (Finset.sum_congr rfl fun e _ => ?_)
  rw [hJ]

end Vec

end Cert.Lib.SegmentSum

end
-- ==== Proof.LibCountColumn.lean ====
/-
  An edge count accumulated two ways, on the extended reals. A segment count scatter-adds a constant o once for every
  edge into a constant array: into a VECTOR of length N (one number per update), or into an [N, 1] COLUMN (one
  one-element row per update). At target r both hold  z + Σ_e [index e = r] · o,  the same sum over the edges, so
  max(count, o') as a vector made a column equals max(count, o') accumulated as a column — for any index words (an
  update whose index is no target adds to neither) and with nothing assumed finite. Also: a scalar constant spread
  over any shape has the constant's value at every index.
  For jax.ops.segment_sum(ones((E,)), …)[:, None] against segment_sum(ones((E, 1)), …).
-/
import proofs.«127017_j11390253269762_1_alg».proof.Proof.LibSegmentSum
import proofs.«127017_j11390253269762_1_alg».proof.Proof.LibGroupSum
import Idealize.ShloMosaic.Lib.ValueIdx
import Idealize.ShloMosaic.Lib.Pipeline.Value

noncomputable section

namespace Cert.Lib.CountColumn

open Idealize.ShloMosaic Idealize.ShloMosaic.ValueIdx Cert.Lib.SegmentSum

/-- A scalar constant spread over any shape has that constant's value at every index. -/
theorem splat_apply {s : Shape} {φ : FTy} (c : BitVec φ.bits) (hb : (⟨0, ![]⟩ : Shape).BroadcastsInDim s ![]) (i : s.Idx) :
    broadcastInDim s ![] hb (constant (F := Ideal) ⟨0, ![]⟩ φ c) i = Ideal.ofBits φ c :=
  broadcastInDim_apply ![] hb (constant (F := Ideal) ⟨0, ![]⟩ φ c) i ix0 (fun a => a.elim0)

/-- max(count, o') with the count accumulated as a vector and then made a column, against the count accumulated
    as a column: entry (r, 0) of both is max(z + Σ_e [index e = r] · o, o'). -/
theorem count_column {N E w : ℕ}
    (wfV : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (J : IVec ⟨2, ![E, 1]⟩ w) (z o o' : EReal)
    (zV : FVec Ideal ⟨1, ![N]⟩ .f32) (hzV : ∀ i, zV i = z) (oE : FVec Ideal ⟨1, ![E]⟩ .f32) (hoE : ∀ i, oE i = o)
    (oN : FVec Ideal ⟨1, ![N]⟩ .f32) (hoN : ∀ i, oN i = o')
    (zR : FVec Ideal ⟨2, ![N, 1]⟩ .f32) (hzR : ∀ i, zR i = z) (oER : FVec Ideal ⟨2, ![E, 1]⟩ .f32) (hoER : ∀ i, oER i = o)
    (oNR : FVec Ideal ⟨2, ![N, 1]⟩ .f32) (hoNR : ∀ i, oNR i = o')
    (hb1 : (⟨1, ![N]⟩ : Shape).BroadcastsInDim ⟨2, ![N, 1]⟩ ![0]) :
    broadcastInDim ⟨2, ![N, 1]⟩ ![0] hb1 (maximumf (Host.scatterAdd (vecDims N E wfV) zV J oE) oN)
      = maximumf (Host.scatterAdd (rowDims N E 1 wfR) zR J oER) oNR := by
  funext j
  obtain ⟨n, u, rfl⟩ : ∃ (n : Fin N) (u : Fin 1), j = ix2 n u := ⟨j 0, j 1, eq_ix2 j⟩
  rw [RowBlock.broadcastInDim_a_a1_apply _ hb1 n u]
  show max (Ideal.hostScatterAdd (vecDims N E wfV) zV J oE (ix1 n)) (oN (ix1 n))
      = max (Ideal.hostScatterAdd (rowDims N E 1 wfR) zR J oER (ix2 n u)) (oNR (ix2 n u))
  rw [vec_scatterAdd_apply, rows_scatterAdd_apply, hzV, hzR, hoN, hoNR]
  refine congrArg (fun s => max (z + s) o') (Finset.sum_congr rfl fun e _ => ?_)
  rw [hoE, hoER]

end Cert.Lib.CountColumn

end
-- ==== Proof.Glue.lean ====
/-
  The kernel program's neighbourhood mean is the specification's.

  Both divide the same scatter-added sum of gathered rows by max(count, 1) repeated across the columns. The kernel
  program counts the edges ending at a target into a VECTOR of length n (a scatter-add of ones into zeros) and then
  views max(count, 1) as an [n, 1] column; the specification scatter-adds a column of ones into a column of zeros.
  At target r both counts are  0 + Σ_e [dst e = r] · 1  — the same sum over the edges — so the two columns agree
  entry by entry, for any edge list (an edge whose end is no target adds to neither).
-/
import proofs.«127017_j11390253269762_1_alg».proof.Proof.Spec
import proofs.«127017_j11390253269762_1_alg».proof.Proof.KGlue
import proofs.«127017_j11390253269762_1_alg».proof.Proof.LibCountColumn

noncomputable section

namespace Cert.Sage.Glue

open Idealize.ShloMosaic Idealize.ShloMosaic.ValueIdx Cert.Lib.CountColumn

/-- Layer 0: the kernel program's mean is the specification's. -/
theorem kmean0_eq (x : (⟨Cert.KernelIdeal.S900000x100, .f32⟩ : BufTy).Contents (Elt Ideal))
    (src dst : (⟨Cert.KernelIdeal.S900000, .i32⟩ : BufTy).Contents (Elt Ideal)) :
    Cert.Sage.K.kmean0 (F := Ideal) x src dst = Cert.Sage.mean0 (F := Ideal) x src dst := by
  unfold Cert.Sage.K.kmean0 Cert.Sage.mean0
  refine congrArg₂ (fun a b => Host.divf a b) rfl (congrArg _ ?_)
  exact count_column _ _ _ (Ideal.ofBits .f32 0x00000000#32) (Ideal.ofBits .f32 0x3F800000#32) (Ideal.ofBits .f32 0x3F800000#32)
    _ (splat_apply _ _) _ (splat_apply _ _) _ (splat_apply _ _) _ (splat_apply _ _) _ (splat_apply _ _) _ (splat_apply _ _) _

/-- Layer 1: the kernel program's mean is the specification's. -/
theorem kmean1_eq (hp : (⟨Cert.KernelIdeal.S60000x256, .f32⟩ : BufTy).Contents (Elt Ideal))
    (src dst : (⟨Cert.KernelIdeal.S60000, .i32⟩ : BufTy).Contents (Elt Ideal)) :
    Cert.Sage.K.kmean1 (F := Ideal) hp src dst = Cert.Sage.mean1 (F := Ideal) hp src dst := by
  unfold Cert.Sage.K.kmean1 Cert.Sage.mean1
  refine congrArg₂ (fun a b => Host.divf a b) rfl (congrArg _ ?_)
  exact count_column _ _ _ (Ideal.ofBits .f32 0x00000000#32) (Ideal.ofBits .f32 0x3F800000#32) (Ideal.ofBits .f32 0x3F800000#32)
    _ (splat_apply _ _) _ (splat_apply _ _) _ (splat_apply _ _) _ (splat_apply _ _) _ (splat_apply _ _) _ (splat_apply _ _) _

/-- Layer 2: the kernel program's mean is the specification's. -/
theorem kmean2_eq (hp : (⟨Cert.KernelIdeal.S6000x256, .f32⟩ : BufTy).Contents (Elt Ideal))
    (src dst : (⟨Cert.KernelIdeal.S5120, .i32⟩ : BufTy).Contents (Elt Ideal)) :
    Cert.Sage.K.kmean2 (F := Ideal) hp src dst = Cert.Sage.mean2 (F := Ideal) hp src dst := by
  unfold Cert.Sage.K.kmean2 Cert.Sage.mean2
  refine congrArg₂ (fun a b => Host.divf a b) rfl (congrArg _ ?_)
  exact count_column _ _ _ (Ideal.ofBits .f32 0x00000000#32) (Ideal.ofBits .f32 0x3F800000#32) (Ideal.ofBits .f32 0x3F800000#32)
    _ (splat_apply _ _) _ (splat_apply _ _) _ (splat_apply _ _) _ (splat_apply _ _) _ (splat_apply _ _) _ (splat_apply _ _) _

/-- The targets' own rows are the same slice in both programs. -/
theorem kself0_eq (x : (⟨Cert.KernelIdeal.S900000x100, .f32⟩ : BufTy).Contents (Elt Ideal)) :
    Cert.Sage.K.kself0 (F := Ideal) x = Cert.Sage.self0 (F := Ideal) x := rfl
theorem kself1_eq (hp : (⟨Cert.KernelIdeal.S60000x256, .f32⟩ : BufTy).Contents (Elt Ideal)) :
    Cert.Sage.K.kself1 (F := Ideal) hp = Cert.Sage.self1 (F := Ideal) hp := rfl
theorem kself2_eq (hp : (⟨Cert.KernelIdeal.S6000x256, .f32⟩ : BufTy).Contents (Elt Ideal)) :
    Cert.Sage.K.kself2 (F := Ideal) hp = Cert.Sage.self2 (F := Ideal) hp := rfl

end Cert.Sage.Glue

end
-- ==== Proof.KernelValue.lean ====
/-
  The kernel program's result is the specification.

  The run's fold names the contents at every segment boundary. Read backwards from the result: the last kernel's
  output array is the log-softmax of the last dense layer of what its windows read when it was entered; those are
  the mean and the slice that the third stretch of host operations computes from the second kernel's output array
  and the edge lists; the second kernel's output array is the rectified dense layer of the mean and slice the second
  stretch computes from the first kernel's output array; and that is the rectified dense layer of the mean and slice
  the first stretch computes from the arguments. The kernel program's means are the specification's (the edge count
  is the same sum whether it is accumulated as a vector or as a column).
-/
import proofs.«127017_j11390253269762_1_alg».proof.Proof.Region0
import proofs.«127017_j11390253269762_1_alg».proof.Proof.Region1
import proofs.«127017_j11390253269762_1_alg».proof.Proof.Region2
import proofs.«127017_j11390253269762_1_alg».proof.Proof.Stretch0
import proofs.«127017_j11390253269762_1_alg».proof.Proof.Stretch1
import proofs.«127017_j11390253269762_1_alg».proof.Proof.Stretch2
import proofs.«127017_j11390253269762_1_alg».proof.Proof.Glue

set_option maxRecDepth 16384

noncomputable section

namespace Cert.Sage.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- After the first kernel its output array is layer 0 of the arguments. -/
theorem layer0 : W2 m ρ c (Proc.devRef .tc main_v20)
    = Cert.Sage.h0 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) := by
  refine (W2_arr m ρ c 5).trans ((Cert.Sage.Region0.final (V1 m ρ) c).trans ?_)
  rw [Cert.Sage.Stretch0.mean_eq m ρ c, Cert.Sage.Stretch0.self_eq m ρ c, Cert.Sage.Stretch0.wl_eq m ρ c,
    Cert.Sage.Stretch0.wr_eq m ρ c, Cert.Sage.Stretch0.b_eq m ρ c, Cert.Sage.Glue.kmean0_eq, Cert.Sage.Glue.kself0_eq]
  rfl

/-- After the second kernel its output array is layer 1 of the first kernel's output array. -/
theorem layer1 : W4 m ρ c (Proc.devRef .tc main_v41)
    = Cert.Sage.h1 (F := Ideal) (W2 m ρ c (Proc.devRef .tc main_v20)) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) := by
  refine (W4_arr m ρ c 5).trans ((Cert.Sage.Region1.final (V3 m ρ) c).trans ?_)
  rw [Cert.Sage.Stretch1.mean_eq m ρ c, Cert.Sage.Stretch1.self_eq m ρ c, Cert.Sage.Stretch1.wl_eq m ρ c,
    Cert.Sage.Stretch1.wr_eq m ρ c, Cert.Sage.Stretch1.b_eq m ρ c, Cert.Sage.Glue.kmean1_eq, Cert.Sage.Glue.kself1_eq]
  rfl

/-- After the third kernel its output array is layer 2 of the second kernel's output array. -/
theorem layer2 : W6 m ρ c (Proc.devRef .tc main_v62)
    = Cert.Sage.h2 (F := Ideal) (W4 m ρ c (Proc.devRef .tc main_v41)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) := by
  refine (W6_arr m ρ c 5).trans ((Cert.Sage.Region2.final (V5 m ρ) c).trans ?_)
  rw [Cert.Sage.Stretch2.mean_eq m ρ c, Cert.Sage.Stretch2.self_eq m ρ c, Cert.Sage.Stretch2.wl_eq m ρ c,
    Cert.Sage.Stretch2.wr_eq m ρ c, Cert.Sage.Stretch2.b_eq m ρ c, Cert.Sage.Glue.kmean2_eq, Cert.Sage.Glue.kself2_eq]
  rfl

/-- The result buffer ends at the network applied to the sixteen arguments. -/
theorem result : W6 m ρ c (Proc.devRef .tc main_v62)
    = Cert.Sage.h2 (F := Ideal)
        (Cert.Sage.h1 (F := Ideal)
          (Cert.Sage.h0 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)))
          (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)))
        (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) := by
  rw [layer2 m ρ c, layer1 m ρ c, layer0 m ρ c]

end Cert.Sage.KernelValue

end
-- ==== Proof.RefSpec.lean ====
/-
  The reference program's result is the specification: its run ends with the result buffer at the composition of its
  host operations applied to the argument arrays, and that composition is, operation for operation, layer 0 into
  layer 1 into layer 2 of the specification (each layer's output feeds both the next layer's gather and its slice).
-/
import proofs.«127017_j11390253269762_1_alg».proof.Proof.Spec
import proofs.«127017_j11390253269762_1_alg».proof.Proof.ReferenceRun

noncomputable section

namespace Cert.Sage

open Cert.ReferenceIdeal Cert.ReferenceIdeal.Gen Idealize.ShloMosaic Idealize.ShloMosaic.TcCoe Idealize.SL.Sem

variable {F : FTy → Type} [FloatOps F]

set_option maxRecDepth 1000000 in
/-- The reference's composed term is the network applied to the sixteen arguments. -/
theorem reference_eq (m : (ℓ : Loc nD τ sig) → Buf (Elt F) ℓ) (c : Dev nD) :
    Cert.ReferenceIdeal.ValueP.res_main_v77 m c
      = h2 (h1 (h0 (m ((c.tc : Thread nD τ).loc main_arg0)) (m ((c.tc : Thread nD τ).loc main_arg1)) (m ((c.tc : Thread nD τ).loc main_arg2))
                   (m ((c.tc : Thread nD τ).loc main_arg7)) (m ((c.tc : Thread nD τ).loc main_arg8)) (m ((c.tc : Thread nD τ).loc main_arg9)))
               (m ((c.tc : Thread nD τ).loc main_arg3)) (m ((c.tc : Thread nD τ).loc main_arg4))
               (m ((c.tc : Thread nD τ).loc main_arg10)) (m ((c.tc : Thread nD τ).loc main_arg11)) (m ((c.tc : Thread nD τ).loc main_arg12)))
           (m ((c.tc : Thread nD τ).loc main_arg5)) (m ((c.tc : Thread nD τ).loc main_arg6))
           (m ((c.tc : Thread nD τ).loc main_arg13)) (m ((c.tc : Thread nD τ).loc main_arg14)) (m ((c.tc : Thread nD τ).loc main_arg15)) := by
  unfold Cert.ReferenceIdeal.ValueP.res_main_v77 h2 h1 h0 logSoftmax dense2 dense1 dense0 mean2 mean1 mean0 self2 self1 self0
  rfl

end Cert.Sage

end
-- ==== Proof.lean ====
/-
  A three-layer graph network with mean aggregation: each layer averages, for every target node, the features of the
  sources of the edges ending at it, and returns  mean · Wl + self · Wr + b;  layers 0 and 1 rectify, the last layer
  takes the row-wise log-softmax. The kernel program computes the gather, the scatter-added sums and counts on the
  host and each dense layer in a kernel tiled over blocks of rows (the matrix products on bf16 copies of their
  operands); the reference computes everything on the host.

  On the extended reals a change of float format is the identity and the matrix unit's product into zeros is the
  host's product, so a block of rows of a dense layer is that layer of the block's rows: the kernels' output arrays
  are the reference's dense layers, row block by row block. The only other difference is that the kernel program
  counts the edges into a vector and the reference into a one-column array; both counts are the same sum over the
  edges. No law is used that fails at an infinity, so the precondition (finite inputs) is never opened, and the edge
  lists may hold any integers: both programs gather and scatter with the same operations.

  The frames of the two kernel programs are the generated frame certificates; the reference's frame is its run (read back from
  its list of host operations) with the result dropped.
-/
import proofs.«127017_j11390253269762_1_alg».proof.Defs
import proofs.«127017_j11390253269762_1_alg».proof.Proof.Gen.Kernel
import proofs.«127017_j11390253269762_1_alg».proof.Proof.Gen.Kernel.Frame
import proofs.«127017_j11390253269762_1_alg».proof.Proof.Gen.KernelIdeal
import proofs.«127017_j11390253269762_1_alg».proof.Proof.Gen.KernelIdeal.Frame
import proofs.«127017_j11390253269762_1_alg».proof.Proof.Gen.ReferenceIdeal
import proofs.«127017_j11390253269762_1_alg».proof.Proof.Gen.Pre_finite_inputs
import proofs.«127017_j11390253269762_1_alg».proof.Proof.KernelRun
import proofs.«127017_j11390253269762_1_alg».proof.Proof.KernelValue
import proofs.«127017_j11390253269762_1_alg».proof.Proof.ReferenceRun
import proofs.«127017_j11390253269762_1_alg».proof.Proof.RefSpec

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this program. -/
theorem preserves : Cert.preserves_Kernel_KernelIdeal := trivial

/-- Both programs end with the network of the specification applied to the arguments, which agree. -/
theorem algebraic : Cert.algebraic_KernelIdeal_ReferenceIdeal := by
  intro m ρ m' ρ' _ hagree
  refine ⟨fun c => Cert.Sage.h2 (F := Ideal)
      (Cert.Sage.h1 (F := Ideal)
        (Cert.Sage.h0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.Sage.KernelValue.result m ρ c), (h c).2⟩)
      (Cert.KernelIdeal.GenRun.run_result (F := Ideal) m ρ)
  · refine (θ_run Cert.ReferenceIdeal.defs _ _).mono
      (fun _ h c => ⟨(h c).1.trans ((Cert.Sage.reference_eq m' c).trans ?_), (h c).2⟩)
      (Cert.ReferenceIdeal.ValueP.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
